-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x256x32 : Shape := ⟨4, ![2, 64, 256, 32]⟩
abbrev S_ : Shape := ⟨0, ![]⟩

class Facts : Prop where
  bcast_S_S2x64x256x32 : S_.BroadcastsInDim S2x64x256x32 (![] : Fin 0 → Fin S2x64x256x32.rank)
  reducesTo_S2x64x256x32_S_d0_1_2_3 : S2x64x256x32.ReducesTo [0, 1, 2, 3] S_
  h_S_ : 0 < S_.numel

variable [Facts]

def fn {F : FTy → Type} [FloatOps F] (main_arg0 : FVec F S2x64x256x32 .f32) (main_arg1 : FVec F S2x64x256x32 .f32) : IVec S_ 1 :=
  let main_v0 : FVec F S2x64x256x32 .f32 := Host.absf main_arg0
  let main_cst : FVec F S_ .f32 := constant S_ .f32 0x7F800000#32
  let main_v1 : FVec F S2x64x256x32 .f32 := broadcastInDim S2x64x256x32 ![] bcast_S_S2x64x256x32 main_cst
  let main_v2 : IVec S2x64x256x32 1 := cmpf .olt main_v0 main_v1
  let main_c : IVec S_ 1 := constantI S_ 1 1#1
  let main_v3 : IVec S_ 1 := (fun x v => Host.reduce IntOp.andi x v reducesTo_S2x64x256x32_S_d0_1_2_3 h_S_) main_v2 main_c
  let main_v4 : FVec F S2x64x256x32 .f32 := Host.absf main_arg1
  let main_cst_0 : FVec F S_ .f32 := constant S_ .f32 0x7F800000#32
  let main_v5 : FVec F S2x64x256x32 .f32 := broadcastInDim S2x64x256x32 ![] bcast_S_S2x64x256x32 main_cst_0
  let main_v6 : IVec S2x64x256x32 1 := cmpf .olt main_v4 main_v5
  let main_c_1 : IVec S_ 1 := constantI S_ 1 1#1
  let main_v7 : IVec S_ 1 := (fun x v => Host.reduce IntOp.andi x v reducesTo_S2x64x256x32_S_d0_1_2_3 h_S_) main_v6 main_c_1
  let main_v8 : IVec S_ 1 := andi main_v3 main_v7
  main_v8
-- ==== Kernel.lean ====
abbrev S2x64x256x32 : Shape := ⟨4, ![2, 64, 256, 32]⟩
abbrev S_ : Shape := ⟨0, ![]⟩
abbrev S2x64x352x32 : Shape := ⟨4, ![2, 64, 352, 32]⟩
abbrev S2x96x64x256x64 : Shape := ⟨5, ![2, 96, 64, 256, 64]⟩
abbrev S1x64x256x32 : Shape := ⟨4, ![1, 64, 256, 32]⟩
abbrev S1x64x352x32 : Shape := ⟨4, ![1, 64, 352, 32]⟩
abbrev S1x4x64x256x64 : Shape := ⟨5, ![1, 4, 64, 256, 64]⟩
abbrev S64x256x32 : Shape := ⟨3, ![64, 256, 32]⟩
abbrev S1x1x64x256x32 : Shape := ⟨5, ![1, 1, 64, 256, 32]⟩

abbrev nBuf : Space → Nat
  | .hbm => 6
  | .vmem => 6
  | .smem => 0
  | _ => 0

abbrev bufTy : (tb : Table) → Fin (tcTables nBuf tb) → BufTy
  | .hbm, ⟨0, _⟩ => ⟨S2x64x256x32, .f32⟩
  | .hbm, ⟨1, _⟩ => ⟨S2x64x256x32, .f32⟩
  | .hbm, ⟨2, _⟩ => ⟨S_, .i32⟩
  | .hbm, ⟨3, _⟩ => ⟨S_, .f32⟩
  | .hbm, ⟨4, _⟩ => ⟨S2x64x352x32, .f32⟩
  | .hbm, ⟨5, _⟩ => ⟨S2x96x64x256x64, .f32⟩
  | .local _ .vmem, ⟨0, _⟩ => ⟨S1x64x256x32, .f32⟩
  | .local _ .vmem, ⟨1, _⟩ => ⟨S1x64x256x32, .f32⟩
  | .local _ .vmem, ⟨2, _⟩ => ⟨S1x64x352x32, .f32⟩
  | .local _ .vmem, ⟨3, _⟩ => ⟨S1x64x352x32, .f32⟩
  | .local _ .vmem, ⟨4, _⟩ => ⟨S1x4x64x256x64, .f32⟩
  | .local _ .vmem, ⟨5, _⟩ => ⟨S1x4x64x256x64, .f32⟩
  | _, _ => ⟨S2x64x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def k0_off1 (i : grid0.Coords) (c0_i32 : BitVec 32) : Fin 4 → Nat :=
  let c0_3 : Index := 0#32
  let c0_4 : Index := 0#32
  let c96_i32 : BitVec 32 := 96#32
  let arg1 : BitVec 32 := BitVec.ofNat 32 (i 1).val
  let c4_i32 : BitVec 32 := 4#32
  let v3 : BitVec 32 := Scalar.muli arg1 c4_i32
  let v4 : BitVec 32 := Scalar.addi v3 c0_i32
  let v6 : BitVec 32 := Scalar.subi c96_i32 v4
  let v7 : Index := Scalar.indexCast v6
  let c0_5 : Index := 0#32
  ![0, 0, v7.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x64x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x352x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x64x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S2x64x256x32_S2x64x352x32_000_000_48480_000 : S2x64x256x32.Pads (![0, 0, 48, 0] : Fin 4 → Nat) ![0, 0, 48, 0] ![0, 0, 0, 0] S2x64x352x32
  h_S_ : 0 < S_.numel
  inb_S1x64x256x32_S1x64x256x32_0_0_0_0 : ∀ a, (![0, 0, 0, 0] : Fin 4 → Nat) a + S1x64x256x32.size a ≤ S1x64x256x32.size a
  h_S1x64x256x32 : 0 < S1x64x256x32.numel
  shapeCasts_S1x64x256x32_S64x256x32 : S1x64x256x32.ShapeCasts S64x256x32
  iota_S64x256x32_d1_w32 : S64x256x32.Iotas .tc 32 [1]
  inb_S1x4x64x256x64_S1x1x64x256x32_0_0_0_0_0 : ∀ a, (![0, 0, 0, 0, 0] : Fin 5 → Nat) a + S1x1x64x256x32.size a ≤ S1x4x64x256x64.size a
  h_S1x1x64x256x32 : 0 < S1x1x64x256x32.numel
  shapeCasts_S1x1x64x256x32_S64x256x32 : S1x1x64x256x32.ShapeCasts S64x256x32
  shapeCasts_S64x256x32_S1x1x64x256x32 : S64x256x32.ShapeCasts S1x1x64x256x32
  inb_S1x4x64x256x64_S1x1x64x256x32_0_0_0_0_32 : ∀ a, (![0, 0, 0, 0, 32] : Fin 5 → Nat) a + S1x1x64x256x32.size a ≤ S1x4x64x256x64.size a
  inb_S1x4x64x256x64_S1x1x64x256x32_0_1_0_0_0 : ∀ a, (![0, 1, 0, 0, 0] : Fin 5 → Nat) a + S1x1x64x256x32.size a ≤ S1x4x64x256x64.size a
  inb_S1x4x64x256x64_S1x1x64x256x32_0_1_0_0_32 : ∀ a, (![0, 1, 0, 0, 32] : Fin 5 → Nat) a + S1x1x64x256x32.size a ≤ S1x4x64x256x64.size a
  inb_S1x4x64x256x64_S1x1x64x256x32_0_2_0_0_0 : ∀ a, (![0, 2, 0, 0, 0] : Fin 5 → Nat) a + S1x1x64x256x32.size a ≤ S1x4x64x256x64.size a
  inb_S1x4x64x256x64_S1x1x64x256x32_0_2_0_0_32 : ∀ a, (![0, 2, 0, 0, 32] : Fin 5 → Nat) a + S1x1x64x256x32.size a ≤ S1x4x64x256x64.size a
  inb_S1x4x64x256x64_S1x1x64x256x32_0_3_0_0_0 : ∀ a, (![0, 3, 0, 0, 0] : Fin 5 → Nat) a + S1x1x64x256x32.size a ≤ S1x4x64x256x64.size a
  inb_S1x4x64x256x64_S1x1x64x256x32_0_3_0_0_32 : ∀ a, (![0, 3, 0, 0, 32] : Fin 5 → Nat) a + S1x1x64x256x32.size a ≤ S1x4x64x256x64.size a
  hrank0 : 0 < grid0.rank
  k0_off1_inb : ∀ i : grid0.Coords, ∀ (r : Fin 4), ∀ a, (k0_off1 i (BitVec.ofNat 32 r.val)) a + S1x64x256x32.size a ≤ S1x64x352x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x32.size a ≤ S2x64x256x32.size a
  hwx0_0 : ∀ i : grid0.Coords, EltTy.bits .f32 = 32 ∨ (Rect.block (s := S2x64x256x32) S1x64x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x352x32.size a ≤ S2x64x352x32.size a
  hwx0_1 : ∀ i : grid0.Coords, EltTy.bits .f32 = 32 ∨ (Rect.block (s := S2x64x352x32) S1x64x352x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64x256x64.size a ≤ S2x96x64x256x64.size a
  hwx0_2 : ∀ i : grid0.Coords, EltTy.bits .f32 = 32 ∨ (Rect.block (s := S2x96x64x256x64) S1x4x64x256x64.size (cc0_transform_2 i) (hinb0_2 i)).WholeWords (EltTy.packing .f32)

variable [Facts₀]

abbrev win0_0 : Pipeline.Window sig grid0 :=
  Pipeline.Window.ofSpec (Memref.whole main_arg0) S1x64x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x352x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4x64x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x64x256x32 : Shape := ⟨4, ![2, 64, 256, 32]⟩
abbrev S96 : Shape := ⟨1, ![96]⟩
abbrev S_ : Shape := ⟨0, ![]⟩
abbrev S256 : Shape := ⟨1, ![256]⟩
abbrev S1x256 : Shape := ⟨2, ![1, 256]⟩
abbrev S96x1 : Shape := ⟨2, ![96, 1]⟩
abbrev S96x256 : Shape := ⟨2, ![96, 256]⟩
abbrev S96x256x1 : Shape := ⟨3, ![96, 256, 1]⟩
abbrev S1 : Shape := ⟨1, ![1]⟩
abbrev S1x1x1 : Shape := ⟨3, ![1, 1, 1]⟩
abbrev S96x2x64x256x32 : Shape := ⟨5, ![96, 2, 64, 256, 32]⟩
abbrev S96x2x64x256x64 : Shape := ⟨5, ![96, 2, 64, 256, 64]⟩
abbrev S96x1x1x256x1 : Shape := ⟨5, ![96, 1, 1, 256, 1]⟩
abbrev S2x64x256x64 : Shape := ⟨4, ![2, 64, 256, 64]⟩
abbrev S2x96x64x256x64 : Shape := ⟨5, ![2, 96, 64, 256, 64]⟩

abbrev nBuf : Space → Nat
  | .hbm => 59
  | .vmem => 0
  | .smem => 0
  | _ => 0

abbrev bufTy : (tb : Table) → Fin (tcTables nBuf tb) → BufTy
  | .hbm, ⟨0, _⟩ => ⟨S2x64x256x32, .f32⟩
  | .hbm, ⟨1, _⟩ => ⟨S2x64x256x32, .f32⟩
  | .hbm, ⟨2, _⟩ => ⟨S96, .i32⟩
  | .hbm, ⟨3, _⟩ => ⟨S_, .i32⟩
  | .hbm, ⟨4, _⟩ => ⟨S96, .i32⟩
  | .hbm, ⟨5, _⟩ => ⟨S96, .i32⟩
  | .hbm, ⟨6, _⟩ => ⟨S256, .i32⟩
  | .hbm, ⟨7, _⟩ => ⟨S1x256, .i32⟩
  | .hbm, ⟨8, _⟩ => ⟨S96x1, .i32⟩
  | .hbm, ⟨9, _⟩ => ⟨S96x256, .i32⟩
  | .hbm, ⟨10, _⟩ => ⟨S96x256, .i32⟩
  | .hbm, ⟨11, _⟩ => ⟨S96x256, .i32⟩
  | .hbm, ⟨12, _⟩ => ⟨S_, .i32⟩
  | .hbm, ⟨13, _⟩ => ⟨S96x256, .i32⟩
  | .hbm, ⟨14, _⟩ => ⟨S96x256, .i1⟩
  | .hbm, ⟨15, _⟩ => ⟨S_, .i32⟩
  | .hbm, ⟨16, _⟩ => ⟨S96x256, .i32⟩
  | .hbm, ⟨17, _⟩ => ⟨S96x256, .i1⟩
  | .hbm, ⟨18, _⟩ => ⟨S96x256, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S96x256, .i32⟩
  | .hbm, ⟨23, _⟩ => ⟨S96x256, .i32⟩
  | .hbm, ⟨24, _⟩ => ⟨S_, .i32⟩
  | .hbm, ⟨25, _⟩ => ⟨S96x256, .i32⟩
  | .hbm, ⟨26, _⟩ => ⟨S96x256, .i32⟩
  | .hbm, ⟨27, _⟩ => ⟨S_, .i32⟩
  | .hbm, ⟨28, _⟩ => ⟨S96x256, .i32⟩
  | .hbm, ⟨29, _⟩ => ⟨S96x256, .i1⟩
  | .hbm, ⟨30, _⟩ => ⟨S_, .i32⟩
  | .hbm, ⟨31, _⟩ => ⟨S96x256, .i32⟩
  | .hbm, ⟨32, _⟩ => ⟨S96x256, .i32⟩
  | .hbm, ⟨33, _⟩ => ⟨S96x256, .i32⟩
  | .hbm, ⟨34, _⟩ => ⟨S96x256x1, .i32⟩
  | .hbm, ⟨35, _⟩ => ⟨S1, .i32⟩
  | .hbm, ⟨36, _⟩ => ⟨S_, .i32⟩
  | .hbm, ⟨37, _⟩ => ⟨S96x256x1, .i32⟩
  | .hbm, ⟨38, _⟩ => ⟨S96x256x1, .i1⟩
  | .hbm, ⟨39, _⟩ => ⟨S1x1x1, .i32⟩
  | .hbm, ⟨40, _⟩ => ⟨S96x256x1, .i32⟩
  | .hbm, ⟨41, _⟩ => ⟨S96x256x1, .i1⟩
  | .hbm, ⟨42, _⟩ => ⟨S96x256x1, .i1⟩
  | .hbm, ⟨43, _⟩ => ⟨S_, .i1⟩
  | .hbm, ⟨44, _⟩ => ⟨S96x256, .i1⟩
  | .hbm, ⟨45, _⟩ => ⟨S96x2x64x256x32, .f32⟩
  | .hbm, ⟨46, _⟩ => ⟨S96x2x64x256x32, .i1⟩
  | .hbm, ⟨47, _⟩ => ⟨S_, .f32⟩
  | .hbm, ⟨48, _⟩ => ⟨S96x2x64x256x32, .f32⟩
  | .hbm, ⟨49, _⟩ => ⟨S96x2x64x256x32, .f32⟩
  | .hbm, ⟨50, _⟩ => ⟨S96x2x64x256x32, .f32⟩
  | .hbm, ⟨51, _⟩ => ⟨S96x2x64x256x64, .f32⟩
  | .hbm, ⟨52, _⟩ => ⟨S96x1x1x256x1, .i1⟩
  | .hbm, ⟨53, _⟩ => ⟨S_, .f32⟩
  | .hbm, ⟨54, _⟩ => ⟨S96x2x64x256x64, .i1⟩
  | .hbm, ⟨55, _⟩ => ⟨S2x64x256x64, .f32⟩
  | .hbm, ⟨56, _⟩ => ⟨S96x2x64x256x64, .f32⟩
  | .hbm, ⟨57, _⟩ => ⟨S96x2x64x256x64, .f32⟩
  | .hbm, ⟨58, _⟩ => ⟨S2x96x64x256x64, .f32⟩
  | _, _ => ⟨S2x64x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v19 : Ref sig .tc := ⟨.hbm, 57, rfl⟩
abbrev main_v20 : Ref sig .tc := ⟨.hbm, 58, rfl⟩

abbrev nD : Nat := 1
abbrev τ : Topo := Topo.v7x

variable {F : FTy → Type} [FloatOps F]

class Facts₀ : Prop where
  bcast_S_S96 : S_.BroadcastsInDim S96 (![] : Fin 0 → Fin S96.rank)
  bcast_S256_S1x256_1 : S256.BroadcastsInDim S1x256 (![1] : Fin 1 → Fin S1x256.rank)
  bcast_S96_S96x1_0 : S96.BroadcastsInDim S96x1 (![0] : Fin 1 → Fin S96x1.rank)
  bcast_S1x256_S96x256_0_1 : S1x256.BroadcastsInDim S96x256 (![0, 1] : Fin 2 → Fin S96x256.rank)
  bcast_S96x1_S96x256_0_1 : S96x1.BroadcastsInDim S96x256 (![0, 1] : Fin 2 → Fin S96x256.rank)
  bcast_S_S96x256 : S_.BroadcastsInDim S96x256 (![] : Fin 0 → Fin S96x256.rank)
  bcast_S96x256_S96x256x1_0_1 : S96x256.BroadcastsInDim S96x256x1 (![0, 1] : Fin 2 → Fin S96x256x1.rank)
  bcast_S_S96x256x1 : S_.BroadcastsInDim S96x256x1 (![] : Fin 0 → Fin S96x256x1.rank)
  bcast_S1_S1x1x1_2 : S1.BroadcastsInDim S1x1x1 (![2] : Fin 1 → Fin S1x1x1.rank)
  bcast_S1x1x1_S96x256x1_0_1_2 : S1x1x1.BroadcastsInDim S96x256x1 (![0, 1, 2] : Fin 3 → Fin S96x256x1.rank)
  reducesTo_S96x256x1_S96x256_d2 : S96x256x1.ReducesTo [2] S96x256
  h_S_ : 0 < S_.numel
  bcast_S96x256_S96x2x64x256x32_0_3 : S96x256.BroadcastsInDim S96x2x64x256x32 (![0, 3] : Fin 2 → Fin S96x2x64x256x32.rank)
  bcast_S_S96x2x64x256x32 : S_.BroadcastsInDim S96x2x64x256x32 (![] : Fin 0 → Fin S96x2x64x256x32.rank)
  bcast_S2x64x256x32_S96x2x64x256x32_1_2_3_4 : S2x64x256x32.BroadcastsInDim S96x2x64x256x32 (![1, 2, 3, 4] : Fin 4 → Fin S96x2x64x256x32.rank)
  concatenates_S96x2x64x256x32_S96x2x64x256x32_S96x2x64x256x64_d4 : Shape.Concatenates [S96x2x64x256x32, S96x2x64x256x32] S96x2x64x256x64 4
  bcast_S96x256_S96x1x1x256x1_0_3 : S96x256.BroadcastsInDim S96x1x1x256x1 (![0, 3] : Fin 2 → Fin S96x1x1x256x1.rank)
  bcast_S96x1x1x256x1_S96x2x64x256x64_0_1_2_3_4 : S96x1x1x256x1.BroadcastsInDim S96x2x64x256x64 (![0, 1, 2, 3, 4] : Fin 5 → Fin S96x2x64x256x64.rank)
  bcast_S_S2x64x256x64 : S_.BroadcastsInDim S2x64x256x64 (![] : Fin 0 → Fin S2x64x256x64.rank)
  bcast_S2x64x256x64_S96x2x64x256x64_1_2_3_4 : S2x64x256x64.BroadcastsInDim S96x2x64x256x64 (![1, 2, 3, 4] : Fin 4 → Fin S96x2x64x256x64.rank)
  transposes_S96x2x64x256x64_S2x96x64x256x64_1_0_2_3_4 : S96x2x64x256x64.Transposes [1, 0, 2, 3, 4] S2x96x64x256x64
  gather_S2x64x256x32_S96x256x1_S96x2x64x256x32_124_2_n_n_2_2_264132_wf : GatherDims.WF S2x64x256x32 S96x256x1 S96x2x64x256x32 [1, 2, 4] [2] [] [2] [] 2 ![2, 64, 1, 32]

variable [Facts₀]

def gather_S2x64x256x32_S96x256x1_S96x2x64x256x32_124_2_n_n_2_2_264132 : GatherDims S2x64x256x32 S96x256x1 S96x2x64x256x32 where
  offsetDims := [1, 2, 4]
  collapsedSliceDims := [2]
  operandBatchingDims := []
  startIndicesBatchingDims := []
  startIndexMap := [2]
  indexVectorDim := 2
  sliceSizes := ![2, 64, 1, 32]
  wf := gather_S2x64x256x32_S96x256x1_S96x2x64x256x32_124_2_n_n_2_2_264132_wf

class Facts : Prop extends Facts₀ where

variable [Facts]
-- ==== Proof.Spec.lean ====
/-
  The cost volume, index by index. For a batch entry `b`, a disparity slot `dd` (standing for the disparity
  `d = dd - 48`), a row `h`, a column `w` and a channel `c` of the 64 concatenated channels, the right image is read at
  the column `w - d = w + 48 - dd`; where that column falls outside `[0, 256)` both halves are zero, and elsewhere
  the first 32 channels are the left image's at `(b, h, w)` and the last 32 the right image's at `(b, h, w - d)`.
  Both programs are shown to compute this one function of the two images.
-/
import Idealize.ShloMosaic.PureOps.Ideal
import Idealize.ShloMosaic.Lib.ValueIdx

noncomputable section

namespace CostVolume

open Idealize.ShloMosaic Idealize.ShloMosaic.ValueIdx

/-- The right-image column `w + 48 - dd` lies in `[0, 256)`. -/
def InRange (dd w : Nat) : Prop := dd ≤ w + 48 ∧ w + 48 < dd + 256

instance (dd w : Nat) : Decidable (InRange dd w) := by unfold InRange; infer_instance

/-- The right-image column, as a column index (reduced mod 256: it is only read where it is in range). -/
def srcCol (dd w : Nat) : Fin 256 := ⟨(w + 48 - dd) % 256, Nat.mod_lt _ (by norm_num)⟩

/-- A channel of either half, as a channel index of one image. -/
def chan (c : Nat) : Fin 32 := ⟨c % 32, Nat.mod_lt _ (by norm_num)⟩

/-- The cost volume at explicit coordinates. -/
def entry (L R : (⟨4, ![2, 64, 256, 32]⟩ : Shape).Idx → EReal) (b : Fin 2) (dd : Fin 96) (h : Fin 64) (w : Fin 256) (c : Fin 64) : EReal :=
  if InRange dd.val w.val then
    (if c.val < 32 then L (ix4 b h w (chan c.val)) else R (ix4 b h (srcCol dd.val w.val) (chan c.val)))
  else 0

/-- The cost volume as one function of the two images. -/
def vol (L R : (⟨4, ![2, 64, 256, 32]⟩ : Shape).Idx → EReal) : (⟨5, ![2, 96, 64, 256, 64]⟩ : Shape).Idx → EReal :=
  fun j => CostVolume.entry L R ⟨(j 0).val, (j 0).isLt⟩ ⟨(j 1).val, (j 1).isLt⟩ ⟨(j 2).val, (j 2).isLt⟩ ⟨(j 3).val, (j 3).isLt⟩ ⟨(j 4).val, (j 4).isLt⟩

theorem vol_ix5 (L R : (⟨4, ![2, 64, 256, 32]⟩ : Shape).Idx → EReal) (b : Fin 2) (dd : Fin 96) (h : Fin 64) (w : Fin 256) (c : Fin 64) :
    vol L R (ix5 b dd h w c) = CostVolume.entry L R b dd h w c := rfl

end CostVolume

end
-- ==== Proof.KernelPieces.lean ====
/-
  The kernel body's eight stores, read at an index. At a grid point with disparity block `db` the body handles the four
  disparity slots `4·db + tt`, `tt = 0 … 3`, and stores two pieces per slot into its output block `[1, 4, 64, 256, 64]`:
  channels `0 … 31` of slot `tt` take the left block masked by the validity of the column `w + 48 - (4·db + tt)`, and
  channels `32 … 63` take the zero-padded right block shifted by `96 - (4·db + tt)` columns. The two 32-bit facts the
  body computes with — the mask bit and the shift — are decided over the finitely many slots and columns.
-/
import proofs.«133507_j27900107554984_2_alg».proof.Proof.Gen.KernelIdeal.Skeleton
import proofs.«133507_j27900107554984_2_alg».proof.Proof.Spec
import Idealize.ShloMosaic.Lib.ValueIdx
import Idealize.ShloMosaic.Lib.Pipeline.Value
import Idealize.ShloMosaic.PureOps.Ideal.Laws

noncomputable section

namespace Cert.KernelIdeal.Pieces

open Cert.KernelIdeal Cert.KernelIdeal.Gen Idealize.ShloMosaic Idealize.ShloMosaic.ValueIdx CostVolume

/-- The slot's disparity word, as the body computes it from the grid coordinate: `4·db + tt - 48` on 32 bits. -/
abbrev dispWord (db tt : Nat) : BitVec 32 :=
  Scalar.subi (Scalar.addi (Scalar.muli (BitVec.ofNat 32 db) 4#32) (BitVec.ofNat 32 tt)) 48#32

/-- The mask bit of column `w` at slot `4·db + tt`: the signed comparisons `0 ≤ w - d` and `w - d < 256` on 32-bit words say
    that the right-image column is in range. -/
theorem mask_bit : ∀ (db : Fin 24) (tt : Fin 4) (w : Fin 256),
    IntOp.andi (IntOp.cmpi .sge (IntOp.subi (BitVec.ofNat 32 w.val) (dispWord db.val tt.val)) 0#32)
        (IntOp.cmpi .slt (IntOp.subi (BitVec.ofNat 32 w.val) (dispWord db.val tt.val)) 256#32)
      = if InRange (4 * db.val + tt.val) w.val then 1#1 else 0#1 := by
  decide +kernel

/-- The column shift of the padded right block at slot `4·db + tt`: `96 - (4·db + tt)`, no wrap. -/
theorem shift_val : ∀ (db : Fin 24) (tt : Fin 4),
    (Scalar.indexCast (Scalar.subi 96#32 (Scalar.addi (Scalar.muli (BitVec.ofNat 32 db.val) 4#32) (BitVec.ofNat 32 tt.val)))).toNat
      = 96 - (4 * db.val + tt.val) := by
  decide +kernel

theorem shift_nat (db tt : Nat) (hdb : db < 24) (htt : tt < 4) :
    (Scalar.indexCast (Scalar.subi 96#32 (Scalar.addi (Scalar.muli (BitVec.ofNat 32 db) 4#32) (BitVec.ofNat 32 tt)))).toNat
      = 96 - (4 * db + tt) := shift_val ⟨db, hdb⟩ ⟨tt, htt⟩

/-- A left-half payload at an index: the body's select between the left block and zero under the slot's mask, stored as
    `[1, 1, 64, 256, 32]`, reads the left block at `(0, h, w, c)` where the column is in range and zero elsewhere. -/
theorem left_apply (db tt : Nat) (hdb : db < 24) (htt : tt < 4) (v5 : BitVec 32) (hv5 : v5 = dispWord db tt)
    (x0 : Vec Ideal S1x64x256x32 .f32) (h : Fin 64) (w : Fin 256) (c : Fin 32) :
    shapeCast S1x1x64x256x32
        (select
          (andi (cmpi .sge (subi (iota .tc S64x256x32 32 [1] iota_S64x256x32_d1_w32) (broadcast S64x256x32 v5)) (broadcast S64x256x32 0#32))
            (cmpi .slt (subi (iota .tc S64x256x32 32 [1] iota_S64x256x32_d1_w32) (broadcast S64x256x32 v5)) (broadcast S64x256x32 256#32)))
          (shapeCast S64x256x32 x0 shapeCasts_S1x64x256x32_S64x256x32)
          (broadcast S64x256x32 (Scalar.ofBits (F := Ideal) .f32 0x00000000#32)))
        shapeCasts_S64x256x32_S1x1x64x256x32 (ix5 0 0 h w c)
      = if InRange (4 * db + tt) w.val then x0 (ix4 0 h w c) else (0 : EReal) := by
  subst hv5
  have hm : IntOp.andi (IntOp.cmpi .sge (IntOp.subi (BitVec.ofNat 32 w.val) (dispWord db tt)) 0#32)
        (IntOp.cmpi .slt (IntOp.subi (BitVec.ofNat 32 w.val) (dispWord db tt)) 256#32)
      = if InRange (4 * db + tt) w.val then 1#1 else 0#1 := mask_bit ⟨db, hdb⟩ ⟨tt, htt⟩ w
  refine (shapeCast_apply _ _ (ix5 0 0 h w c) (ix3 h w c) (by
    rw [Shape.rowMajor_val_three, Shape.rowMajor_val_five]
    show (h.val * 256 + w.val) * 32 + c.val = ((((0 : Nat) * 1 + 0) * 64 + h.val) * 256 + w.val) * 32 + c.val
    omega)).trans ?_
  show Scalar.select
      (IntOp.andi (IntOp.cmpi .sge (IntOp.subi (iota .tc S64x256x32 32 [1] iota_S64x256x32_d1_w32 (ix3 h w c)) (dispWord db tt)) 0#32)
        (IntOp.cmpi .slt (IntOp.subi (iota .tc S64x256x32 32 [1] iota_S64x256x32_d1_w32 (ix3 h w c)) (dispWord db tt)) 256#32))
      (shapeCast S64x256x32 x0 shapeCasts_S1x64x256x32_S64x256x32 (ix3 h w c)) (Ideal.ofBits .f32 0x00000000#32) = _
  rw [iota_single_apply .tc S64x256x32 32 1 iota_S64x256x32_d1_w32 (ix3 h w c)]
  show Scalar.select
      (IntOp.andi (IntOp.cmpi .sge (IntOp.subi (BitVec.ofNat 32 w.val) (dispWord db tt)) 0#32)
        (IntOp.cmpi .slt (IntOp.subi (BitVec.ofNat 32 w.val) (dispWord db tt)) 256#32))
      (shapeCast S64x256x32 x0 shapeCasts_S1x64x256x32_S64x256x32 (ix3 h w c)) (Ideal.ofBits .f32 0x00000000#32) = _
  rw [hm]
  by_cases hr : InRange (4 * db + tt) w.val
  · rw [if_pos hr, if_pos hr, select_one]
    exact shapeCast_apply _ _ (ix3 h w c) (ix4 0 h w c) (by
      rw [Shape.rowMajor_val_three, Shape.rowMajor_val_four]
      show (((0 : Nat) * 64 + h.val) * 256 + w.val) * 32 + c.val = (h.val * 256 + w.val) * 32 + c.val
      omega)
  · rw [if_neg hr, if_neg hr, select_zero]
    exact Ideal.ofBits_zero_f32

/-- A right-half payload at an index: a `[1, 64, 256, 32]` value re-laid as `[1, 1, 64, 256, 32]` keeps its entries. -/
theorem relaid_apply (v : Vec Ideal S1x64x256x32 .f32) (h : Fin 64) (w : Fin 256) (c : Fin 32) :
    shapeCast S1x1x64x256x32 (shapeCast S64x256x32 v shapeCasts_S1x64x256x32_S64x256x32) shapeCasts_S64x256x32_S1x1x64x256x32 (ix5 0 0 h w c)
      = v (ix4 0 h w c) := by
  refine (shapeCast_apply _ _ (ix5 0 0 h w c) (ix3 h w c) (by
    rw [Shape.rowMajor_val_three, Shape.rowMajor_val_five]
    show (h.val * 256 + w.val) * 32 + c.val = ((((0 : Nat) * 1 + 0) * 64 + h.val) * 256 + w.val) * 32 + c.val
    omega)).trans ?_
  exact shapeCast_apply _ _ (ix3 h w c) (ix4 0 h w c) (by
    rw [Shape.rowMajor_val_three, Shape.rowMajor_val_four]
    show (((0 : Nat) * 64 + h.val) * 256 + w.val) * 32 + c.val = (h.val * 256 + w.val) * 32 + c.val
    omega)

end Cert.KernelIdeal.Pieces

end
-- ==== Proof.KernelBlocks.lean ====
/-
  What the kernel's output block holds after the body at a grid point, as ONE function of the point's two input blocks:
  the eight stores tile the block `[1, 4, 64, 256, 64]` (four disparity slots, two channel halves each), and each store's
  payload is that function read at the store's own rectangle.
-/
import proofs.«133507_j27900107554984_2_alg».proof.Proof.Gen.KernelIdeal.Value
import proofs.«133507_j27900107554984_2_alg».proof.Proof.KernelPieces

noncomputable section

namespace Cert.KernelIdeal.Blocks

open Cert.KernelIdeal Cert.KernelIdeal.Gen Cert.KernelIdeal.Pieces Idealize.ShloMosaic Idealize.ShloMosaic.TcCoe Idealize.SL.Sem
open Idealize.ShloMosaic.ValueIdx Idealize.ShloMosaic.Tactic CostVolume

/-- The column of the zero-padded right block that slot `dd` reads for output column `w`: the body's window starts at
    column `96 - dd` (reduced mod 352: for `dd < 96` and `w < 256` it is below 352 already). -/
def padCol (dd w : Nat) : Fin 352 := ⟨(96 - dd + w) % 352, Nat.mod_lt _ (by norm_num)⟩

/-- The output block at explicit coordinates (slot `tt` of the point's four, row, column, channel), from the point's
    left block `x0` and padded right block `x1`. -/
def blockAt (db : Nat) (x0 : Vec Ideal S1x64x256x32 .f32) (x1 : Vec Ideal S1x64x352x32 .f32)
    (tt : Fin 4) (h : Fin 64) (w : Fin 256) (c : Fin 64) : EReal :=
  if c.val < 32 then (if InRange (4 * db + tt.val) w.val then x0 (ix4 0 h w (chan c.val)) else (0 : EReal))
  else x1 (ix4 0 h (padCol (4 * db + tt.val) w.val) (chan c.val))

/-- The output block as one function of its index. -/
def blockFn (db : Nat) (x0 : Vec Ideal S1x64x256x32 .f32) (x1 : Vec Ideal S1x64x352x32 .f32) : Vec Ideal S1x4x64x256x64 .f32 :=
  fun y => blockAt db x0 x1 ⟨(y 1).val, (y 1).isLt⟩ ⟨(y 2).val, (y 2).isLt⟩ ⟨(y 3).val, (y 3).isLt⟩ ⟨(y 4).val, (y 4).isLt⟩

/-- An index of a store's rectangle `[1, 1, 64, 256, 32]` is `(0, 0, h, w, c)`. -/
theorem piece_idx (x : S1x1x64x256x32.Idx) : ∃ (h : Fin 64) (w : Fin 256) (c : Fin 32), x = ix5 0 0 h w c := by
  refine ⟨⟨(x 2).val, (x 2).isLt⟩, ⟨(x 3).val, (x 3).isLt⟩, ⟨(x 4).val, (x 4).isLt⟩, funext fun a => ?_⟩
  match a with
  | ⟨0, _⟩ => exact Fin.ext (by show (x 0).val = 0; have : (x 0).val < 1 := (x 0).isLt; omega)
  | ⟨1, _⟩ => exact Fin.ext (by show (x 1).val = 0; have : (x 1).val < 1 := (x 1).isLt; omega)
  | ⟨2, _⟩ => rfl
  | ⟨3, _⟩ => rfl
  | ⟨4, _⟩ => rfl

/-- The block function under a store's rectangle: the rectangle at slot `tt` and channel offset `o` sends `(0, 0, h, w, c)`
    to the block's `(0, tt, h, w, o + c)`. -/
theorem blockFn_piece (db : Nat) (x0 : Vec Ideal S1x64x256x32 .f32) (x1 : Vec Ideal S1x64x352x32 .f32) (tt o : Nat) (htt : tt < 4)
    (ho : o + 32 ≤ 64) (inb : ∀ a, (![0, tt, 0, 0, o] : Fin 5 → Nat) a + S1x1x64x256x32.size a ≤ S1x4x64x256x64.size a)
    (h : Fin 64) (w : Fin 256) (c : Fin 32) :
    blockFn db x0 x1 ((Rect.unit (s := S1x4x64x256x64) ![0, tt, 0, 0, o] S1x1x64x256x32.size inb).emb (ix5 0 0 h w c))
      = blockAt db x0 x1 ⟨tt, htt⟩ h w ⟨o + c.val, by have := c.isLt; omega⟩ := by
  unfold blockFn
  refine congr (congr (congr (congrArg (blockAt db x0 x1) (Fin.ext ?_)) (Fin.ext ?_)) (Fin.ext ?_)) (Fin.ext ?_)
  · show tt + 1 * 0 = tt; omega
  · show 0 + 1 * h.val = h.val; omega
  · show 0 + 1 * w.val = w.val; omega
  · show o + 1 * c.val = o + c.val; omega

theorem hz4 : (![0, 0, 0, 0] : Fin 4 → Nat) = fun _ => 0 := funext fun a => by fin_cases a <;> rfl

/-- The left half of a slot: the masked left block is the block function on channels `0 … 31`. -/
theorem blockAt_left (db : Nat) (x0 : Vec Ideal S1x64x256x32 .f32) (x1 : Vec Ideal S1x64x352x32 .f32) (tt : Nat) (htt : tt < 4)
    (h : Fin 64) (w : Fin 256) (c : Fin 32) :
    blockAt db x0 x1 ⟨tt, htt⟩ h w ⟨0 + c.val, by have := c.isLt; omega⟩
      = if InRange (4 * db + tt) w.val then x0 (ix4 0 h w c) else (0 : EReal) := by
  have hc := c.isLt
  unfold blockAt
  rw [if_pos (show (0 + c.val) < 32 by omega)]
  have e : chan (0 + c.val) = c := Fin.ext (by show (0 + c.val) % 32 = c.val; omega)
  rw [e]

/-- The right half of a slot: channels `32 … 63` read the padded right block at the shifted column. -/
theorem blockAt_right (db : Nat) (x0 : Vec Ideal S1x64x256x32 .f32) (x1 : Vec Ideal S1x64x352x32 .f32) (tt : Nat) (htt : tt < 4)
    (h : Fin 64) (w : Fin 256) (c : Fin 32) :
    blockAt db x0 x1 ⟨tt, htt⟩ h w ⟨32 + c.val, by have := c.isLt; omega⟩
      = x1 (ix4 0 h (padCol (4 * db + tt) w.val) c) := by
  have hc := c.isLt
  unfold blockAt
  rw [if_neg (show ¬ (32 + c.val) < 32 by omega)]
  have e : chan (32 + c.val) = c := Fin.ext (by show (32 + c.val) % 32 = c.val; omega)
  rw [e]

/-- A load of the padded right block through the slot's window `[1, 64, 256, 32]` at column offset `96 - (4·db + tt)`, read at
    `(0, h, w, c)`, is the block at the shifted column. -/
theorem shifted_load (i : grid0.Coords) (tt : Nat) (htt : tt < 4) (x1 : Vec Ideal S1x64x352x32 .f32)
    (inb : ∀ a, k0_off1 i (BitVec.ofNat 32 tt) a + S1x64x256x32.size a ≤ S1x64x352x32.size a)
    (h : Fin 64) (w : Fin 256) (c : Fin 32) :
    View.ld x1 (Rect.unit (s := S1x64x352x32) (k0_off1 i (BitVec.ofNat 32 tt)) S1x64x256x32.size inb) (ix4 0 h w c)
      = x1 (ix4 0 h (padCol (4 * (i 1).val + tt) w.val) c) := by
  have hi1 : (i 1).val < 24 := (i 1).isLt
  have hw := w.isLt
  have hs : k0_off1 i (BitVec.ofNat 32 tt) 2 = 96 - (4 * (i 1).val + tt) := shift_nat (i 1).val tt hi1 htt
  show x1 ((Rect.unit (s := S1x64x352x32) (k0_off1 i (BitVec.ofNat 32 tt)) S1x64x256x32.size inb).idx (ix4 0 h w c)) = _
  congr 1
  funext a
  match a with
  | ⟨0, _⟩ => exact Fin.ext (by show 0 + 1 * 0 = 0; omega)
  | ⟨1, _⟩ => exact Fin.ext (by show 0 + 1 * h.val = h.val; omega)
  | ⟨2, _⟩ => exact Fin.ext (by
      show k0_off1 i (BitVec.ofNat 32 tt) 2 + 1 * w.val = (96 - (4 * (i 1).val + tt) + w.val) % 352
      rw [hs]; omega)
  | ⟨3, _⟩ => exact Fin.ext (by show 0 + 1 * c.val = c.val; omega)

/-- The four right-half payloads are one re-laying of the loaded window, each as the body spells it. -/
theorem right3_apply (v : Vec Ideal S1x64x256x32 .f32) (h : Fin 64) (w : Fin 256) (c : Fin 32) :
    k0_pay1 (F := Ideal) (k0_pay11 v) (ix5 0 0 h w c) = v (ix4 0 h w c) := relaid_apply v h w c
theorem right2_apply (v : Vec Ideal S1x64x256x32 .f32) (h : Fin 64) (w : Fin 256) (c : Fin 32) :
    k0_pay10 (F := Ideal) (k0_pay7 v) (ix5 0 0 h w c) = v (ix4 0 h w c) := relaid_apply v h w c
theorem right1_apply (v : Vec Ideal S1x64x256x32 .f32) (h : Fin 64) (w : Fin 256) (c : Fin 32) :
    k0_pay6 (F := Ideal) v (ix5 0 0 h w c) = v (ix4 0 h w c) := relaid_apply v h w c
theorem right0_apply (v : Vec Ideal S1x64x256x32 .f32) (h : Fin 64) (w : Fin 256) (c : Fin 32) :
    k0_pay4 (F := Ideal) v (ix5 0 0 h w c) = v (ix4 0 h w c) := relaid_apply v h w c

/-- THE BODY'S BLOCK: what the run leaves in the output's staging buffer is the block function of the two input blocks. -/
theorem out_eq (c : Dev nD) (i : grid0.Coords) (arg2 : Memref sig .tc .vmem S1x64x256x32 .f32) (harg2 : arg2.IsWhole)
    (arg3 : Memref sig .tc .vmem S1x64x352x32 .f32) (harg3 : arg3.IsWhole) (arg4 : Memref sig .tc .vmem S1x4x64x256x64 .f32) (harg4 : arg4.IsWhole)
    (x0 : Vec Ideal S1x64x256x32 .f32) (x1 : Vec Ideal S1x64x352x32 .f32) :
    out0_A_2 (F := Ideal) c i arg2 harg2 arg3 harg3 arg4 harg4 x0 x1 = blockFn (i 1).val x0 x1 := by
  have hi1 : (i 1).val < 24 := (i 1).isLt
  funext y
  unfold out0_A_2
  rw [View.read_writes_eq_canon _ _ _ (cover0_A_2 c i arg2 harg2 arg3 harg3 arg4 harg4 x0 x1)]
  refine View.canon_apply_of_pieces (blockFn (i 1).val x0 x1) _ ?_ y (cover0_A_2 c i arg2 harg2 arg3 harg3 arg4 harg4 x0 x1 y)
  unfold kernelRun0_A
  dsimp only
  sl_unfold_run_names
  simp only [View.readAt_eq_ld, harg2.read_unread, harg3.read_unread, View.ld_unit_zero (S := S1x64x256x32) hz4]
  intro p hp x
  simp only [List.mem_cons, List.mem_nil_iff, or_false] at hp
  rcases hp with rfl | rfl | rfl | rfl | rfl | rfl | rfl | rfl
  · obtain ⟨h, w, ch, rfl⟩ := piece_idx x
    dsimp only
    refine (right3_apply _ h w ch).trans ?_
    refine (shifted_load i 3 (by norm_num) x1 _ h w ch).trans ?_
    exact ((blockFn_piece (i 1).val x0 x1 3 32 (by norm_num) (by norm_num) _ h w ch).trans
      (blockAt_right (i 1).val x0 x1 3 (by norm_num) h w ch)).symm
  · obtain ⟨h, w, ch, rfl⟩ := piece_idx x
    dsimp only
    refine (left_apply (i 1).val 3 hi1 (by norm_num) (dispWord (i 1).val 3) rfl x0 h w ch).trans ?_
    exact ((blockFn_piece (i 1).val x0 x1 3 0 (by norm_num) (by norm_num) _ h w ch).trans
      (blockAt_left (i 1).val x0 x1 3 (by norm_num) h w ch)).symm
  · obtain ⟨h, w, ch, rfl⟩ := piece_idx x
    dsimp only
    refine (right2_apply _ h w ch).trans ?_
    refine (shifted_load i 2 (by norm_num) x1 _ h w ch).trans ?_
    exact ((blockFn_piece (i 1).val x0 x1 2 32 (by norm_num) (by norm_num) _ h w ch).trans
      (blockAt_right (i 1).val x0 x1 2 (by norm_num) h w ch)).symm
  · obtain ⟨h, w, ch, rfl⟩ := piece_idx x
    dsimp only
    refine (left_apply (i 1).val 2 hi1 (by norm_num) (dispWord (i 1).val 2) rfl x0 h w ch).trans ?_
    exact ((blockFn_piece (i 1).val x0 x1 2 0 (by norm_num) (by norm_num) _ h w ch).trans
      (blockAt_left (i 1).val x0 x1 2 (by norm_num) h w ch)).symm
  · obtain ⟨h, w, ch, rfl⟩ := piece_idx x
    dsimp only
    refine (right1_apply _ h w ch).trans ?_
    refine (shifted_load i 1 (by norm_num) x1 _ h w ch).trans ?_
    exact ((blockFn_piece (i 1).val x0 x1 1 32 (by norm_num) (by norm_num) _ h w ch).trans
      (blockAt_right (i 1).val x0 x1 1 (by norm_num) h w ch)).symm
  · obtain ⟨h, w, ch, rfl⟩ := piece_idx x
    dsimp only
    refine (left_apply (i 1).val 1 hi1 (by norm_num) (dispWord (i 1).val 1) rfl x0 h w ch).trans ?_
    exact ((blockFn_piece (i 1).val x0 x1 1 0 (by norm_num) (by norm_num) _ h w ch).trans
      (blockAt_left (i 1).val x0 x1 1 (by norm_num) h w ch)).symm
  · obtain ⟨h, w, ch, rfl⟩ := piece_idx x
    dsimp only
    refine (right0_apply _ h w ch).trans ?_
    refine (shifted_load i 0 (by norm_num) x1 _ h w ch).trans ?_
    exact ((blockFn_piece (i 1).val x0 x1 0 32 (by norm_num) (by norm_num) _ h w ch).trans
      (blockAt_right (i 1).val x0 x1 0 (by norm_num) h w ch)).symm
  · obtain ⟨h, w, ch, rfl⟩ := piece_idx x
    dsimp only
    refine (left_apply (i 1).val 0 hi1 (by norm_num) (dispWord (i 1).val 0) rfl x0 h w ch).trans ?_
    exact ((blockFn_piece (i 1).val x0 x1 0 0 (by norm_num) (by norm_num) _ h w ch).trans
      (blockAt_left (i 1).val x0 x1 0 (by norm_num) h w ch)).symm

end Cert.KernelIdeal.Blocks

end
-- ==== Proof.KernelValue.lean ====
/-
  The kernel's result array after the run. At grid point `(b, db)` the output block is block `(b, db)` of the cost volume:
  the left window's block is batch entry `b` of the left image, the right window's block is batch entry `b` of the right
  image zero-padded by 48 columns on both sides (the host's pad before the call), and reading the padded image at column
  `96 - dd + w` is reading the right image at `w + 48 - dd` where that is a column and zero elsewhere. The 48 blocks
  cover the result array, so the array ends holding the cost volume of the two argument images.
-/
import proofs.«133507_j27900107554984_2_alg».proof.Proof.KernelBlocks
import Idealize.ShloMosaic.Lib.KernelVsHost
import Idealize.ShloMosaic.Lib.StableHlo.Run

noncomputable section

namespace Cert.KernelIdeal.KValue

open Cert.KernelIdeal Cert.KernelIdeal.Gen Cert.KernelIdeal.Pieces Cert.KernelIdeal.Blocks Idealize.ShloMosaic Idealize.ShloMosaic.TcCoe Idealize.SL.Sem
open Idealize.ShloMosaic.ValueIdx Idealize.ShloMosaic.StableHlo CostVolume
open Idealize.ShloMosaic.Pipeline (Dat)

variable (m : (ℓ : Loc nD τ sig) → Buf (Elt Ideal) ℓ) (ρ : Dev nD → PrngReg)

/-! ## The padded right image -/

/-- The right image zero-padded by 48 columns on both sides, as the host computes it before the call. -/
def padded (R : FVec Ideal S2x64x256x32 .f32) : FVec Ideal S2x64x352x32 .f32 :=
  pad S2x64x352x32 ![0, 0, 48, 0] ![0, 0, 48, 0] ![0, 0, 0, 0] R (sitofp (F := Ideal) .f32 (constantI S_ 32 0#32))
    pads_S2x64x256x32_S2x64x352x32_000_000_48480_000 h_S_

/-- The padded image at a column: the right image 48 columns to the left where that is a column, zero elsewhere. -/
theorem padded_apply (R : FVec Ideal S2x64x256x32 .f32) (b : Fin 2) (h : Fin 64) (j : Fin 352) (c : Fin 32) :
    padded R (ix4 b h j c) = if hj : 48 ≤ j.val ∧ j.val < 304 then R (ix4 b h ⟨j.val - 48, by omega⟩ c) else (0 : EReal) := by
  unfold padded
  by_cases hj : 48 ≤ j.val ∧ j.val < 304
  · rw [dif_pos hj]
    refine pad_apply_of_inside _ _ _ _ _ _ _ (ix4 b h j c) (ix4 b h ⟨j.val - 48, by omega⟩ c) (fun a => ?_)
    match a with
    | ⟨0, _⟩ => show b.val = 0 + b.val * (0 + 1); omega
    | ⟨1, _⟩ => show h.val = 0 + h.val * (0 + 1); omega
    | ⟨2, _⟩ => show j.val = 48 + (j.val - 48) * (0 + 1); omega
    | ⟨3, _⟩ => show c.val = 0 + c.val * (0 + 1); omega
  · rw [dif_neg hj]
    refine (pad_apply_of_not_inside _ _ _ _ _ _ _ (ix4 b h j c) (2 : Fin 4) ?_).trans ?_
    · show ¬(48 ≤ j.val ∧ (j.val - 48) % (0 + 1) = 0 ∧ (j.val - 48) / (0 + 1) < 256)
      omega
    · show ((((0#32 : BitVec 32).toInt : ℝ)) : EReal) = 0
      simp

/-- The region finds the padded right image in the right window's array. -/
theorem V_padded (c : Dev nD) :
    (V m c main_v0 : S2x64x352x32.Idx → EReal) = padded (m ((c : Thread nD τ).loc main_arg1)) := by
  dsimp only [V]
  simp only [hostOps0, hostOps0_1, List.flatten_cons, List.flatten_nil, List.append_nil, List.cons_append, List.nil_append]
  after_results
  rfl

/-! ## A point's block is a block of the cost volume -/

/-- For input blocks that are batch entry `b` of the left image and of the padded right image, the body's block at disparity
    block `db` is the cost volume at `(b, 4·db + tt, h, w, c)`: on the left half both are the masked left image; on the
    right half the padded image at column `96 - dd + w` is the right image at `w + 48 - dd` where the column is in range,
    and zero elsewhere. -/
theorem blockAt_eq_entry (L R : FVec Ideal S2x64x256x32 .f32) (b : Fin 2) (db : Nat) (hdb : db < 24)
    (x0 : Vec Ideal S1x64x256x32 .f32) (x1 : Vec Ideal S1x64x352x32 .f32)
    (h0 : ∀ (h : Fin 64) (w : Fin 256) (c : Fin 32), x0 (ix4 0 h w c) = L (ix4 b h w c))
    (h1 : ∀ (h : Fin 64) (j : Fin 352) (c : Fin 32), x1 (ix4 0 h j c) = padded R (ix4 b h j c))
    (tt : Fin 4) (h : Fin 64) (w : Fin 256) (c : Fin 64) :
    blockAt db x0 x1 tt h w c = CostVolume.entry L R b ⟨4 * db + tt.val, by have := tt.isLt; omega⟩ h w c := by
  have htt := tt.isLt
  have hw := w.isLt
  unfold blockAt CostVolume.entry
  by_cases hc : c.val < 32
  · rw [if_pos hc, h0]
    by_cases hr : InRange (4 * db + tt.val) w.val
    · rw [if_pos hr, if_pos hr, if_pos hc]
    · rw [if_neg hr, if_neg hr]
  · rw [if_neg hc, h1, padded_apply]
    by_cases hr : InRange (4 * db + tt.val) w.val
    · obtain ⟨hr1, hr2⟩ := hr
      have hp : (padCol (4 * db + tt.val) w.val).val = 96 - (4 * db + tt.val) + w.val := by
        show (96 - (4 * db + tt.val) + w.val) % 352 = _; omega
      rw [dif_pos (by rw [hp]; omega), if_pos ⟨hr1, hr2⟩, if_neg hc]
      congr 1
      funext a
      match a with
      | ⟨0, _⟩ => rfl
      | ⟨1, _⟩ => rfl
      | ⟨2, _⟩ => exact Fin.ext (by
          show (padCol (4 * db + tt.val) w.val).val - 48 = (w.val + 48 - (4 * db + tt.val)) % 256
          rw [hp]; omega)
      | ⟨3, _⟩ => rfl
    · have hp : (padCol (4 * db + tt.val) w.val).val = 96 - (4 * db + tt.val) + w.val := by
        show (96 - (4 * db + tt.val) + w.val) % 352 = _; omega
      rw [dif_neg (by rw [hp]; unfold InRange at hr; omega), if_neg hr]

/-- The printed index maps over the 48 grid points: the two input windows' block is the batch coordinate, the output's
    block is (batch coordinate, disparity block). -/
theorem idx_facts : ∀ t : Fin cfg0.N,
    win0_0.index t (0 : Fin 4) = (grid0.coords t 0).val ∧ win0_0.index t (1 : Fin 4) = 0 ∧ win0_0.index t (2 : Fin 4) = 0 ∧ win0_0.index t (3 : Fin 4) = 0
    ∧ win0_1.index t (0 : Fin 4) = (grid0.coords t 0).val ∧ win0_1.index t (1 : Fin 4) = 0 ∧ win0_1.index t (2 : Fin 4) = 0 ∧ win0_1.index t (3 : Fin 4) = 0
    ∧ win0_2.index t (0 : Fin 5) = (grid0.coords t 0).val ∧ win0_2.index t (1 : Fin 5) = (grid0.coords t 1).val ∧ win0_2.index t (2 : Fin 5) = 0
    ∧ win0_2.index t (3 : Fin 5) = 0 ∧ win0_2.index t (4 : Fin 5) = 0 :=
  (by decide +kernel : ∀ t : Fin grid0.N, _)

/-- Every (batch entry, disparity block) is some grid point's output block. -/
theorem idx_onto : ∀ (q0 : Fin 2) (q1 : Fin 24), ∃ t : Fin cfg0.N, win0_2.index t = ![q0.val, q1.val, 0, 0, 0] :=
  (by decide +kernel : ∀ (q0 : Fin 2) (q1 : Fin 24), ∃ t : Fin grid0.N, win0_2.index t = ![q0.val, q1.val, 0, 0, 0])

/-- The left window's block at a point is the batch entry of the left image. -/
theorem iblk0_apply (c : Dev nD) (t : Fin cfg0.N) (h : Fin 64) (w : Fin 256) (ch : Fin 32) :
    iblk m c 0 t (ix4 0 h w ch) = m ((c : Thread nD τ).loc main_arg0) (ix4 ⟨(grid0.coords t 0).val, (grid0.coords t 0).isLt⟩ h w ch) := by
  obtain ⟨e0, e1, e2, e3, -⟩ := idx_facts t
  show V m c main_arg0 (((cfg0.win 0).blk t).view.emb (ix4 0 h w ch)) = _
  rw [V_main_arg0]
  congr 1
  funext a
  match a with
  | ⟨0, _⟩ => exact Fin.ext (by show win0_0.index t (0 : Fin 4) * 1 + 1 * 0 = (grid0.coords t 0).val; omega)
  | ⟨1, _⟩ => exact Fin.ext (by show win0_0.index t (1 : Fin 4) * 64 + 1 * h.val = h.val; omega)
  | ⟨2, _⟩ => exact Fin.ext (by show win0_0.index t (2 : Fin 4) * 256 + 1 * w.val = w.val; omega)
  | ⟨3, _⟩ => exact Fin.ext (by show win0_0.index t (3 : Fin 4) * 32 + 1 * ch.val = ch.val; omega)

/-- The right window's block at a point is the batch entry of the padded right image. -/
theorem iblk1_apply (c : Dev nD) (t : Fin cfg0.N) (h : Fin 64) (j : Fin 352) (ch : Fin 32) :
    iblk m c 1 t (ix4 0 h j ch)
      = padded (m ((c : Thread nD τ).loc main_arg1)) (ix4 ⟨(grid0.coords t 0).val, (grid0.coords t 0).isLt⟩ h j ch) := by
  obtain ⟨-, -, -, -, e0, e1, e2, e3, -⟩ := idx_facts t
  show (V m c main_v0 : S2x64x352x32.Idx → EReal) (((cfg0.win 1).blk t).view.emb (ix4 0 h j ch)) = _
  rw [V_padded]
  congr 1
  funext a
  match a with
  | ⟨0, _⟩ => exact Fin.ext (by show win0_1.index t (0 : Fin 4) * 1 + 1 * 0 = (grid0.coords t 0).val; omega)
  | ⟨1, _⟩ => exact Fin.ext (by show win0_1.index t (1 : Fin 4) * 64 + 1 * h.val = h.val; omega)
  | ⟨2, _⟩ => exact Fin.ext (by show win0_1.index t (2 : Fin 4) * 352 + 1 * j.val = j.val; omega)
  | ⟨3, _⟩ => exact Fin.ext (by show win0_1.index t (3 : Fin 4) * 32 + 1 * ch.val = ch.val; omega)

/-- What the result array is shown to hold: the cost volume of the two argument images. -/
abbrev val (c : Dev nD) : Buf (Elt Ideal) ((c : Thread nD τ).loc main_v1) :=
  vol (m ((c : Thread nD τ).loc main_arg0)) (m ((c : Thread nD τ).loc main_arg1))

/-- WHAT POINT `t` WRITES BACK is block `t` of the cost volume. -/
theorem flushed_eq (c : Dev nD) (t : Fin cfg0.N) :
    (dats m 0 c).flushed 2 t = ((cfg0.win 2).blk t).view.read (Elt Ideal) (val m c) := by
  rw [Value.flushed2_A, out_eq]
  obtain ⟨-, -, -, -, -, -, -, -, e0, e1, e2, e3, e4⟩ := idx_facts t
  have hb : (grid0.coords t 1).val < 24 := (grid0.coords t 1).isLt
  funext y
  have hy1 : (y 1).val < 4 := (y 1).isLt
  show blockFn (grid0.coords t 1).val (iblk m c 0 t) (iblk m c 1 t) y = val m c (((cfg0.win 2).blk t).view.emb y)
  unfold blockFn
  rw [blockAt_eq_entry (m ((c : Thread nD τ).loc main_arg0)) (m ((c : Thread nD τ).loc main_arg1))
    ⟨(grid0.coords t 0).val, (grid0.coords t 0).isLt⟩ (grid0.coords t 1).val hb (iblk m c 0 t) (iblk m c 1 t)
    (iblk0_apply m c t) (iblk1_apply m c t)]
  show _ = CostVolume.entry _ _ _ _ _ _ _
  refine congr (congr (congr (congr (congrArg (CostVolume.entry _ _) (Fin.ext ?_)) (Fin.ext ?_)) (Fin.ext ?_)) (Fin.ext ?_)) (Fin.ext ?_)
  · show (grid0.coords t 0).val = win0_2.index t (0 : Fin 5) * 1 + 1 * (y 0).val
    have : (y 0).val < 1 := (y 0).isLt
    omega
  · show 4 * (grid0.coords t 1).val + (y 1).val = win0_2.index t (1 : Fin 5) * 4 + 1 * (y 1).val; omega
  · show (y 2).val = win0_2.index t (2 : Fin 5) * 64 + 1 * (y 2).val; omega
  · show (y 3).val = win0_2.index t (3 : Fin 5) * 256 + 1 * (y 3).val; omega
  · show (y 4).val = win0_2.index t (4 : Fin 5) * 64 + 1 * (y 4).val; omega

/-- An index of the array is in point `t`'s block iff each coordinate is in the block's range on its axis. -/
theorem mem_blk (t : Fin cfg0.N) (i : S2x96x64x256x64.Idx) :
    i ∈ ((cfg0.win 2).blk t).view.set ↔ ∀ a : Fin 5, win0_2.index t a * S1x4x64x256x64.size a ≤ (i a).val ∧ (i a).val < win0_2.index t a * S1x4x64x256x64.size a + S1x4x64x256x64.size a := by
  show i ∈ ((View.whole main_v1).slice (win0_2.rect t)).set ↔ _
  rw [View.set_slice_whole, Rect.mem_set_unit]
  exact Iff.rfl

/-- The 48 blocks cover the result array: index `(b, dd, …)` is in the block of the point `(b, dd / 4)`. -/
theorem cover (i : S2x96x64x256x64.Idx) :
    ∃ t : Fin cfg0.N, (cfg0.win 2).flush t = true ∧ i ∈ ((cfg0.win 2).blk t).view.set := by
  have hi0 : (i 0).val < 2 := (i 0).isLt
  have hi1 : (i 1).val < 96 := (i 1).isLt
  have hi2 : (i 2).val < 64 := (i 2).isLt
  have hi3 : (i 3).val < 256 := (i 3).isLt
  have hi4 : (i 4).val < 64 := (i 4).isLt
  obtain ⟨t, ht⟩ := idx_onto ⟨(i 0).val, hi0⟩ ⟨(i 1).val / 4, by omega⟩
  have q0 : win0_2.index t (0 : Fin 5) = (i 0).val := congrFun ht 0
  have q1 : win0_2.index t (1 : Fin 5) = (i 1).val / 4 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 4 ≤ (i 1).val ∧ (i 1).val < win0_2.index t (1 : Fin 5) * 4 + 4; omega
  | ⟨2, _⟩ => show win0_2.index t (2 : Fin 5) * 64 ≤ (i 2).val ∧ (i 2).val < win0_2.index t (2 : Fin 5) * 64 + 64; omega
  | ⟨3, _⟩ => show win0_2.index t (3 : Fin 5) * 256 ≤ (i 3).val ∧ (i 3).val < win0_2.index t (3 : Fin 5) * 256 + 256; omega
  | ⟨4, _⟩ => show win0_2.index t (4 : Fin 5) * 64 ≤ (i 4).val ∧ (i 4).val < win0_2.index t (4 : Fin 5) * 64 + 64; omega

/-- THE ARRAY after the run: the cost volume of the argument images. -/
theorem final (c : Dev nD) : (dats m 0 c).arrAt 2 cfg0.N = val m c :=
  (dats m 0 c).arrAt_eq_of_cover 2 (val m c) (fun t _ => flushed_eq m c t) cover

/-- The kernel's run: every weakly fair execution ends with the result array at the cost volume of the argument images,
    the arguments unchanged. -/
theorem run : θ_run defs (onTc (τ := τ) (main (F := Ideal))) ⟨m, fun _ => 0, ρ⟩ fun r => ∀ c : Dev nD,
      r.2.mem ((c : Thread nD τ).loc main_v1) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefRun.lean ====
/-
  The reference program's run, read back. Its @main is a straight line of 57 host operations once the three
  functions it calls (the clip of the column index, the gather with its index wrap and in-bounds mask, the final
  masking select) are unfolded at their call sites: the operations are listed in order, @main is shown to be that
  list run in sequence, and the library's theorem for such a sequence gives every buffer after the run as the
  fold of the operations over the launch contents.
-/
import proofs.«133507_j27900107554984_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: nineteen of its own (the disparities, the column index
    `w - d`, the validity mask), six of the clip, twenty-three of the gather (the negative-index wrap, the
    in-bounds mask, the gather itself, the select against the fill value), four more of its own (the left image
    repeated per disparity, the concatenation, the mask re-laid, the zero), four of the masking select, and the
    transpose that brings the batch axis first. -/
abbrev ops : List (HloOp τ sig (Elt F)) :=
  [ nullary main_v0 (iotaInDim S96 32 0),
    nullary main_c (constantI S_ 32 4294967248#32),
    unary main_c main_v1 (broadcastInDim S96 ![] bcast_S_S96),
    binary main_v1 main_v0 main_v2 addi,
    nullary main_v3 (iotaInDim S256 32 0),
    unary main_v3 main_v4 (broadcastInDim S1x256 ![1] bcast_S256_S1x256_1),
    unary main_v2 main_v5 (broadcastInDim S96x1 ![0] bcast_S96_S96x1_0),
    unary main_v4 main_v6 (broadcastInDim S96x256 ![0, 1] bcast_S1x256_S96x256_0_1),
    unary main_v5 main_v7 (broadcastInDim S96x256 ![0, 1] bcast_S96x1_S96x256_0_1),
    binary main_v6 main_v7 main_v8 subi,
    nullary main_c_0 (constantI S_ 32 0#32),
    unary main_c_0 main_v9 (broadcastInDim S96x256 ![] bcast_S_S96x256),
    binary main_v8 main_v9 main_v10 (cmpi .sge),
    nullary main_c_1 (constantI S_ 32 256#32),
    unary main_c_1 main_v11 (broadcastInDim S96x256 ![] bcast_S_S96x256),
    binary main_v8 main_v11 main_v12 (cmpi .slt),
    binary main_v10 main_v12 main_v13 andi,
    nullary main_c_2 (constantI S_ 32 0#32),
    nullary main_c_3 (constantI S_ 32 255#32),
    TRef.unary (.of main_c_2 : TRef sig ⟨S_, .i32⟩) main_call0.v0 id,
    TRef.unary main_call0.v0 main_call0.v1 (broadcastInDim S96x256 ![] bcast_S_S96x256),
    TRef.binary main_call0.v1 (.of main_v8 : TRef sig ⟨S96x256, .i32⟩) main_call0.v2 maxsi,
    TRef.unary (.of main_c_3 : TRef sig ⟨S_, .i32⟩) main_call0.v3 id,
    TRef.unary main_call0.v3 main_call0.v4 (broadcastInDim S96x256 ![] bcast_S_S96x256),
    TRef.binary main_call0.v4 main_call0.v2 main_call0.v5 minsi,
    TRef.nullary main_call1.c (constantI S_ 32 0#32),
    TRef.unary main_call1.c main_call1.v0 (broadcastInDim S96x256 ![] bcast_S_S96x256),
    TRef.binary (.of main_v14 : TRef sig ⟨S96x256, .i32⟩) main_call1.v0 main_call1.v1 (cmpi .slt),
    TRef.nullary main_call1.c_0 (constantI S_ 32 256#32),
    TRef.unary main_call1.c_0 main_call1.v2 (broadcastInDim S96x256 ![] bcast_S_S96x256),
    TRef.binary (.of main_v14 : TRef sig ⟨S96x256, .i32⟩) main_call1.v2 main_call1.v3 addi,
    TRef.ternary main_call1.v1 main_call1.v3 (.of main_v14 : TRef sig ⟨S96x256, .i32⟩) main_call1.call0.v0 select,
    TRef.unary main_call1.call0.v0 main_call1.v5 (broadcastInDim S96x256x1 ![0, 1] bcast_S96x256_S96x256x1_0_1),
    TRef.nullary main_call1.c_1 (constantI S1 32 255#32),
    TRef.nullary main_call1.c_2 (constantI S_ 32 0#32),
    TRef.unary main_call1.c_2 main_call1.v6 (broadcastInDim S96x256x1 ![] bcast_S_S96x256x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S96x256x1 ![0, 1, 2] bcast_S1x1x1_S96x256x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S96x256x1_S96x256_d2 h_S_),
    TRef.binary (.of main_arg1 : TRef sig ⟨S2x64x256x32, .f32⟩) main_call1.v5 main_call1.v13 (fun x i => Host.gather gather_S2x64x256x32_S96x256x1_S96x2x64x256x32_124_2_n_n_2_2_264132 x i),
    TRef.unary main_call1.v12 main_call1.v14 (broadcastInDim S96x2x64x256x32 ![0, 3] bcast_S96x256_S96x2x64x256x32_0_3),
    TRef.nullary main_call1.cst (constant S_ .f32 0x7FC00000#32),
    TRef.unary main_call1.cst main_call1.v15 (broadcastInDim S96x2x64x256x32 ![] bcast_S_S96x2x64x256x32),
    TRef.ternary main_call1.v14 main_call1.v13 main_call1.v15 main_call1.v16 select,
    unary main_arg0 main_v16 (broadcastInDim S96x2x64x256x32 ![1, 2, 3, 4] bcast_S2x64x256x32_S96x2x64x256x32_1_2_3_4),
    binary main_v16 main_v15 main_v17 (fun a b => concatenate S96x2x64x256x64 4 [⟨S96x2x64x256x32, a⟩, ⟨S96x2x64x256x32, b⟩] concatenates_S96x2x64x256x32_S96x2x64x256x32_S96x2x64x256x64_d4),
    unary main_v13 main_v18 (broadcastInDim S96x1x1x256x1 ![0, 3] bcast_S96x256_S96x1x1x256x1_0_3),
    nullary main_cst (constant S_ .f32 0x00000000#32),
    TRef.unary (.of main_v18 : TRef sig ⟨S96x1x1x256x1, .i1⟩) main_call2.v0 (broadcastInDim S96x2x64x256x64 ![0, 1, 2, 3, 4] bcast_S96x1x1x256x1_S96x2x64x256x64_0_1_2_3_4),
    TRef.unary (.of main_cst : TRef sig ⟨S_, .f32⟩) main_call2.v1 (broadcastInDim S2x64x256x64 ![] bcast_S_S2x64x256x64),
    TRef.unary main_call2.v1 main_call2.v2 (broadcastInDim S96x2x64x256x64 ![1, 2, 3, 4] bcast_S2x64x256x64_S96x2x64x256x64_1_2_3_4),
    TRef.ternary main_call2.v0 (.of main_v17 : TRef sig ⟨S96x2x64x256x64, .f32⟩) main_call2.v2 main_call2.v3 select,
    unary main_v19 main_v20 (transpose S2x96x64x256x64 [1, 0, 2, 3, 4] · transposes_S96x2x64x256x64_S2x96x64x256x64_1_0_2_3_4) ]

-- fifty-seven binds re-associated: the rewrite under the chain recurses once per statement
set_option maxRecDepth 2048 in
/-- @main is that straight line: the functions' definitions unfolded at their calls, both sides are one chain of
    host steps once sequencing is re-associated. -/
theorem main_eq (c : Dev nD) : main (F := F) c = seq ops := by
  simp only [main, fn_clip.body, fn_take.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., binary_bufs_sub .., nullary_bufs_sub ..,
    nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., unary_bufs_sub .., nullary_bufs_sub ..,
    unary_bufs_sub .., unary_bufs_sub .., unary_bufs_sub .., ternary_bufs_sub ..,
    unary_bufs_sub ..⟩

/-- On every device, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's host program as a composition of named stages. For every disparity slot `dd` and column `w` it builds
  the column index `w - d` (`d = dd - 48`) as a 32-bit word, a validity bit `0 ≤ w - d < 256`, and a start index for the
  gather of the right image: the column index clipped into `[0, 255]`, passed through the gather's negative-index wrap
  and its in-bounds mask. The gathered right image and the left image repeated per slot are concatenated along
  channels, masked by the validity bit against zero, and the batch axis is brought first.
-/
import proofs.«133507_j27900107554984_2_alg».proof.Proof.Gen.ReferenceIdeal

noncomputable section

namespace Cert.ReferenceIdeal.RefValue

open Cert.ReferenceIdeal Cert.ReferenceIdeal.Gen Idealize.ShloMosaic Idealize.SL.Sem

/-! ## The stages -/

section Stages
variable {F : FTy → Type} [FloatOps F]

/-- The disparities `-48 + dd`. -/
def disp : IVec S96 32 :=
  addi (broadcastInDim S96 ![] bcast_S_S96 (constantI S_ 32 4294967248#32)) (iotaInDim S96 32 0)

/-- The right-image column `w - d` for each slot and column. -/
def colIdx : IVec S96x256 32 :=
  subi (broadcastInDim S96x256 ![0, 1] bcast_S1x256_S96x256_0_1 (broadcastInDim S1x256 ![1] bcast_S256_S1x256_1 (iotaInDim S256 32 0)))
    (broadcastInDim S96x256 ![0, 1] bcast_S96x1_S96x256_0_1 (broadcastInDim S96x1 ![0] bcast_S96_S96x1_0 disp))

/-- The validity bit `0 ≤ w - d < 256`. -/
def validMask : IVec S96x256 1 :=
  andi (cmpi .sge colIdx (broadcastInDim S96x256 ![] bcast_S_S96x256 (constantI S_ 32 0#32)))
    (cmpi .slt colIdx (broadcastInDim S96x256 ![] bcast_S_S96x256 (constantI S_ 32 256#32)))

/-- The column clipped into `[0, 255]`. -/
def clipped : IVec S96x256 32 :=
  minsi (broadcastInDim S96x256 ![] bcast_S_S96x256 (id (constantI S_ 32 255#32)))
    (maxsi (broadcastInDim S96x256 ![] bcast_S_S96x256 (id (constantI S_ 32 0#32))) colIdx)

/-- The gather's negative-index wrap of the clipped column. -/
def wrapped : IVec S96x256 32 :=
  select (cmpi .slt clipped (broadcastInDim S96x256 ![] bcast_S_S96x256 (constantI S_ 32 0#32)))
    (addi clipped (broadcastInDim S96x256 ![] bcast_S_S96x256 (constantI S_ 32 256#32))) clipped

/-- The gather's start indices `[96, 256, 1]`. -/
def starts : IVec S96x256x1 32 := broadcastInDim S96x256x1 ![0, 1] bcast_S96x256_S96x256x1_0_1 wrapped

/-- The gather's in-bounds mask: every component of the start index in `[0, 255]`. -/
def inBounds : IVec S96x256 1 :=
  Host.reduce IntOp.andi
    (andi (cmpi .sge starts (broadcastInDim S96x256x1 ![] bcast_S_S96x256x1 (constantI S_ 32 0#32)))
      (cmpi .sle starts (broadcastInDim S96x256x1 ![0, 1, 2] bcast_S1x1x1_S96x256x1_0_1_2
        (broadcastInDim S1x1x1 ![2] bcast_S1_S1x1x1_2 (constantI S1 32 255#32)))))
    (constantI S_ 1 1#1) reducesTo_S96x256x1_S96x256_d2 h_S_

/-- The right image gathered at the start indices, the fill value where the mask is off. -/
def taken (R : FVec F S2x64x256x32 .f32) : FVec F S96x2x64x256x32 .f32 :=
  select (broadcastInDim S96x2x64x256x32 ![0, 3] bcast_S96x256_S96x2x64x256x32_0_3 inBounds)
    (Host.gather gather_S2x64x256x32_S96x256x1_S96x2x64x256x32_124_2_n_n_2_2_264132 R starts)
    (broadcastInDim S96x2x64x256x32 ![] bcast_S_S96x2x64x256x32 (constant S_ .f32 0x7FC00000#32))

/-- The left image repeated per slot beside the gathered right image, along channels. -/
def levels (L R : FVec F S2x64x256x32 .f32) : FVec F S96x2x64x256x64 .f32 :=
  concatenate S96x2x64x256x64 4
    [⟨S96x2x64x256x32, broadcastInDim S96x2x64x256x32 ![1, 2, 3, 4] bcast_S2x64x256x32_S96x2x64x256x32_1_2_3_4 L⟩,
      ⟨S96x2x64x256x32, taken R⟩]
    concatenates_S96x2x64x256x32_S96x2x64x256x32_S96x2x64x256x64_d4

/-- The levels masked by the validity bit against zero. -/
def masked (L R : FVec F S2x64x256x32 .f32) : FVec F S96x2x64x256x64 .f32 :=
  select (broadcastInDim S96x2x64x256x64 ![0, 1, 2, 3, 4] bcast_S96x1x1x256x1_S96x2x64x256x64_0_1_2_3_4
      (broadcastInDim S96x1x1x256x1 ![0, 3] bcast_S96x256_S96x1x1x256x1_0_3 validMask))
    (levels L R)
    (broadcastInDim S96x2x64x256x64 ![1, 2, 3, 4] bcast_S2x64x256x64_S96x2x64x256x64_1_2_3_4
      (broadcastInDim S2x64x256x64 ![] bcast_S_S2x64x256x64 (constant S_ .f32 0x00000000#32)))

/-- The reference's result: the batch axis first. -/
def refOut (L R : FVec F S2x64x256x32 .f32) : FVec F S2x96x64x256x64 .f32 :=
  transpose S2x96x64x256x64 [1, 0, 2, 3, 4] (masked L R) transposes_S96x2x64x256x64_S2x96x64x256x64_1_0_2_3_4

end Stages

end Cert.ReferenceIdeal.RefValue

end
-- ==== Proof.RefValue.lean ====
/-
  The fold of the reference's 57 operations at its result buffer, computed in three stretches: the first 25 operations
  leave the validity mask and the clipped column index in their buffers; the next 23 (the gather with its wrap and
  in-bounds mask) read the clipped index and the right image and leave the gathered image; the last 9 read the left
  image, the gathered image and the mask and leave the result. Each stretch is read over an arbitrary valuation
  of the buffers; composed, they give the stages of RefStages.lean.
-/
import proofs.«133507_j27900107554984_2_alg».proof.Proof.RefRun
import proofs.«133507_j27900107554984_2_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The first stretch: @main's first nineteen operations and the clip. -/
abbrev opsA : List (HloOp τ sig (Elt F)) := (ops (F := F)).take 25
/-- The second stretch: the gather's twenty-three operations. -/
abbrev opsB : List (HloOp τ sig (Elt F)) := ((ops (F := F)).drop 25).take 23
/-- The third stretch: the last nine operations. -/
abbrev opsC : List (HloOp τ sig (Elt F)) := (ops (F := F)).drop 48

theorem ops_split : (ops : List (HloOp τ sig (Elt F))) = opsA ++ (opsB ++ opsC) := rfl

/-! ## The later stages over what the earlier ones left -/

/-- The gathered right image, from the right image and the clipped column index. -/
def takenOf (R : FVec F S2x64x256x32 .f32) (cl : IVec S96x256 32) : FVec F S96x2x64x256x32 .f32 :=
  select (broadcastInDim S96x2x64x256x32 ![0, 3] bcast_S96x256_S96x2x64x256x32_0_3
      (Host.reduce IntOp.andi
        (andi (cmpi .sge (broadcastInDim S96x256x1 ![0, 1] bcast_S96x256_S96x256x1_0_1
              (select (cmpi .slt cl (broadcastInDim S96x256 ![] bcast_S_S96x256 (constantI S_ 32 0#32)))
                (addi cl (broadcastInDim S96x256 ![] bcast_S_S96x256 (constantI S_ 32 256#32))) cl))
            (broadcastInDim S96x256x1 ![] bcast_S_S96x256x1 (constantI S_ 32 0#32)))
          (cmpi .sle (broadcastInDim S96x256x1 ![0, 1] bcast_S96x256_S96x256x1_0_1
              (select (cmpi .slt cl (broadcastInDim S96x256 ![] bcast_S_S96x256 (constantI S_ 32 0#32)))
                (addi cl (broadcastInDim S96x256 ![] bcast_S_S96x256 (constantI S_ 32 256#32))) cl))
            (broadcastInDim S96x256x1 ![0, 1, 2] bcast_S1x1x1_S96x256x1_0_1_2
              (broadcastInDim S1x1x1 ![2] bcast_S1_S1x1x1_2 (constantI S1 32 255#32)))))
        (constantI S_ 1 1#1) reducesTo_S96x256x1_S96x256_d2 h_S_))
    (Host.gather gather_S2x64x256x32_S96x256x1_S96x2x64x256x32_124_2_n_n_2_2_264132 R
      (broadcastInDim S96x256x1 ![0, 1] bcast_S96x256_S96x256x1_0_1
        (select (cmpi .slt cl (broadcastInDim S96x256 ![] bcast_S_S96x256 (constantI S_ 32 0#32)))
          (addi cl (broadcastInDim S96x256 ![] bcast_S_S96x256 (constantI S_ 32 256#32))) cl)))
    (broadcastInDim S96x2x64x256x32 ![] bcast_S_S96x2x64x256x32 (constant S_ .f32 0x7FC00000#32))

/-- The result, from the left image, the gathered right image and the validity mask. -/
def resultOf (L : FVec F S2x64x256x32 .f32) (T : FVec F S96x2x64x256x32 .f32) (vm : IVec S96x256 1) : FVec F S2x96x64x256x64 .f32 :=
  transpose S2x96x64x256x64 [1, 0, 2, 3, 4]
    (select (broadcastInDim S96x2x64x256x64 ![0, 1, 2, 3, 4] bcast_S96x1x1x256x1_S96x2x64x256x64_0_1_2_3_4
        (broadcastInDim S96x1x1x256x1 ![0, 3] bcast_S96x256_S96x1x1x256x1_0_3 vm))
      (concatenate S96x2x64x256x64 4
        [⟨S96x2x64x256x32, broadcastInDim S96x2x64x256x32 ![1, 2, 3, 4] bcast_S2x64x256x32_S96x2x64x256x32_1_2_3_4 L⟩,
          ⟨S96x2x64x256x32, T⟩]
        concatenates_S96x2x64x256x32_S96x2x64x256x32_S96x2x64x256x64_d4)
      (broadcastInDim S96x2x64x256x64 ![1, 2, 3, 4] bcast_S2x64x256x64_S96x2x64x256x64_1_2_3_4
        (broadcastInDim S2x64x256x64 ![] bcast_S_S2x64x256x64 (constant S_ .f32 0x00000000#32))))
    transposes_S96x2x64x256x64_S2x96x64x256x64_1_0_2_3_4

/-- The stages of RefStages.lean are these, composed. -/
theorem refOut_eq_resultOf (L R : FVec F S2x64x256x32 .f32) :
    refOut L R = resultOf L (takenOf R clipped) validMask := rfl

/-! ## The three stretches -/

/-- A stretch written out as its operations, then each operation's result read at the buffer asked for. -/
local macro "stretch_results" : tactic =>
  `(tactic| (simp only [opsA, opsB, opsC, ops, List.take_succ_cons, List.take_zero, List.drop_succ_cons, List.drop_zero]
             after_results))

theorem A_valid (V : Valuation τ sig (Elt F)) : after opsA V (main_v13 : DevRef τ sig) = validMask := by
  stretch_results
  rfl
theorem A_clipped (V : Valuation τ sig (Elt F)) : after opsA V (main_v14 : DevRef τ sig) = clipped := by
  stretch_results
  rfl
theorem A_arg0 (V : Valuation τ sig (Elt F)) : after opsA V (main_arg0 : DevRef τ sig) = V (main_arg0 : DevRef τ sig) := by
  stretch_results
theorem A_arg1 (V : Valuation τ sig (Elt F)) : after opsA V (main_arg1 : DevRef τ sig) = V (main_arg1 : DevRef τ sig) := by
  stretch_results

attribute [local irreducible] Host.reduce Host.gather in
set_option maxHeartbeats 4000000 in
theorem B_taken (W : Valuation τ sig (Elt F)) :
    after opsB W (main_v15 : DevRef τ sig) = takenOf (W (main_arg1 : DevRef τ sig)) (W (main_v14 : DevRef τ sig)) := by
  stretch_results
  rfl
theorem B_valid (W : Valuation τ sig (Elt F)) : after opsB W (main_v13 : DevRef τ sig) = W (main_v13 : DevRef τ sig) := by
  stretch_results
theorem B_arg0 (W : Valuation τ sig (Elt F)) : after opsB W (main_arg0 : DevRef τ sig) = W (main_arg0 : DevRef τ sig) := by
  stretch_results
theorem B_arg1 (W : Valuation τ sig (Elt F)) : after opsB W (main_arg1 : DevRef τ sig) = W (main_arg1 : DevRef τ sig) := by
  stretch_results

attribute [local irreducible] concatenate transpose in
theorem C_result (X : Valuation τ sig (Elt F)) :
    after opsC X (main_v20 : DevRef τ sig)
      = resultOf (X (main_arg0 : DevRef τ sig)) (X (main_v15 : DevRef τ sig)) (X (main_v13 : DevRef τ sig)) := by
  stretch_results
  rfl
theorem C_arg0 (X : Valuation τ sig (Elt F)) : after opsC X (main_arg0 : DevRef τ sig) = X (main_arg0 : DevRef τ sig) := by
  stretch_results
theorem C_arg1 (X : Valuation τ sig (Elt F)) : after opsC X (main_arg1 : DevRef τ sig) = X (main_arg1 : DevRef τ sig) := by
  stretch_results

/-! ## Composed -/

/-- The fold of @main's operations at the result buffer is `refOut` of the launch contents of the two arguments. -/
theorem out_eq (V : Valuation τ sig (Elt F)) :
    after ops V (main_v20 : DevRef τ sig) = refOut (V (main_arg0 : DevRef τ sig)) (V (main_arg1 : DevRef τ sig)) := by
  rw [ops_split, after_append, after_append, C_result, B_taken, B_valid, B_arg0, A_valid, A_clipped, A_arg0, A_arg1,
    refOut_eq_resultOf]

theorem arg0_eq (V : Valuation τ sig (Elt F)) : after ops V (main_arg0 : DevRef τ sig) = V (main_arg0 : DevRef τ sig) := by
  rw [ops_split, after_append, after_append, C_arg0, B_arg0, A_arg0]
theorem arg1_eq (V : Valuation τ sig (Elt F)) : after ops V (main_arg1 : DevRef τ sig) = V (main_arg1 : DevRef τ sig) := by
  rw [ops_split, after_append, after_append, C_arg1, B_arg1, A_arg1]

end Cert.ReferenceIdeal.RefValue

end
-- ==== Proof.RefWords.lean ====
/-
  The 32-bit words the reference computes for a disparity slot `dd` and a column `w`: the column index `w - (-48 + dd)`,
  and the gather's start word — that index clipped into `[0, 255]` and passed through the negative-index wrap. Three
  facts about them are decided over the 96 × 256 pairs: the validity bit says `w + 48 - dd` is a column; the start word
  is in bounds whatever the slot and the column; where the column is in range the start word, read signed and clamped,
  is `w + 48 - dd`.
-/
import proofs.«133507_j27900107554984_2_alg».proof.Proof.Spec
import Idealize.ShloMosaic.PureOps

noncomputable section

namespace Cert.ReferenceIdeal.RefValue

open Idealize.ShloMosaic CostVolume

/-! ## The 32-bit words of a slot and a column -/

/-- The column index `w - (-48 + dd)` as the host computes it. -/
abbrev colWord (dd w : Nat) : BitVec 32 :=
  IntOp.subi (BitVec.ofNat 32 w) (IntOp.addi 4294967248#32 (BitVec.ofNat 32 dd))

/-- The gather's start word: the column index clipped into `[0, 255]`, then wrapped if negative. -/
abbrev startWord (dd w : Nat) : BitVec 32 :=
  Scalar.select (IntOp.cmpi .slt (IntOp.minsi 255#32 (IntOp.maxsi 0#32 (colWord dd w))) 0#32)
    (IntOp.addi (IntOp.minsi 255#32 (IntOp.maxsi 0#32 (colWord dd w))) 256#32)
    (IntOp.minsi 255#32 (IntOp.maxsi 0#32 (colWord dd w)))

/-- The validity bit says the right-image column is in range. -/
theorem valid_bit : ∀ (dd : Fin 96) (w : Fin 256),
    IntOp.andi (IntOp.cmpi .sge (colWord dd.val w.val) 0#32) (IntOp.cmpi .slt (colWord dd.val w.val) 256#32)
      = if InRange dd.val w.val then 1#1 else 0#1 := by
  decide +kernel

/-- The start word is always in bounds. -/
theorem start_inb : ∀ (dd : Fin 96) (w : Fin 256),
    IntOp.andi (IntOp.cmpi .sge (startWord dd.val w.val) 0#32) (IntOp.cmpi .sle (startWord dd.val w.val) 255#32) = 1#1 := by
  decide +kernel

/-- Where the column is in range, the start word read signed and clamped is the column. -/
theorem start_val : ∀ (dd : Fin 96) (w : Fin 256), InRange dd.val w.val →
    min (startWord dd.val w.val).toInt.toNat (256 - 1) = w.val + 48 - dd.val := by
  decide +kernel

end Cert.ReferenceIdeal.RefValue

end
-- ==== Proof.RefRead.lean ====
/-
  The reference's stages read at an index, at the extended reals. With the three 32-bit facts of RefWords.lean — the
  validity bit says `w + 48 - dd` is a column; the gather's in-bounds bits are always set; where the column is in range
  the gather's start index is `w + 48 - dd` — the masked concatenation of the
  left image and the gathered right image is the cost volume of Spec.lean, entry by entry.
-/
import proofs.«133507_j27900107554984_2_alg».proof.Proof.RefStages
import proofs.«133507_j27900107554984_2_alg».proof.Proof.RefWords
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.SL.Sem
open Idealize.ShloMosaic.ValueIdx CostVolume

/-! ## The integer stages at an index -/

theorem colIdx_apply (dd : Fin 96) (w : Fin 256) : colIdx (ix2 dd w) = colWord dd.val w.val := rfl

theorem validMask_apply (dd : Fin 96) (w : Fin 256) :
    validMask (ix2 dd w) = if InRange dd.val w.val then 1#1 else 0#1 :=
  valid_bit dd w

theorem wrapped_apply (dd : Fin 96) (w : Fin 256) : wrapped (ix2 dd w) = startWord dd.val w.val := rfl

theorem starts_apply (dd : Fin 96) (w : Fin 256) (z : Fin 1) : starts (ix3 dd w z) = startWord dd.val w.val := rfl

/-! ## The gather's in-bounds mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_ones f hf l

/-- The in-bounds mask is set at every slot and column: the start word was clipped into range. -/
theorem inBounds_apply (j : S96x256.Idx) : inBounds j = 1#1 := by
  unfold inBounds
  rw [Host.reduce_eq_foldl]
  refine foldl_andi_ones _ (fun i => ?_) _
  obtain ⟨a, b, z, rfl⟩ : ∃ (a : Fin 96) (b : Fin 256) (z : Fin 1), i = ix3 a b z := ⟨i 0, i 1, i 2, eq_ix3 i⟩
  exact start_inb a b

/-! ## The gather at an index -/

/-- The gather's dimension numbers: the image's column axis collapsed and indexed, its other axes kept. -/
abbrev gd : GatherDims S2x64x256x32 S96x256x1 S96x2x64x256x32 :=
  gather_S2x64x256x32_S96x256x1_S96x2x64x256x32_124_2_n_n_2_2_264132

/-- The gather of the right image `[2, 64, 256, 32]` along its column axis at start indices `[96, 256, 1]`, read at
    `(dd, b, h, w, c)`: the image at `(b, h, ·, c)` and the column the start index `idx[dd, w, 0]` names, read signed
    and clamped into `[0, 255]`. -/
theorem gather_apply (R : FVec Ideal S2x64x256x32 .f32) (idx : IVec S96x256x1 32)
    (dd : Fin 96) (b : Fin 2) (h : Fin 64) (w : Fin 256) (c : Fin 32) :
    Host.gather gather_S2x64x256x32_S96x256x1_S96x2x64x256x32_124_2_n_n_2_2_264132 R idx (ix5 dd b h w c)
      = R (ix4 b h ⟨min (idx (ix3 dd w 0)).toInt.toNat (256 - 1), by omega⟩ c) := by
  unfold Host.gather
  congr 1
  funext a
  refine Fin.ext ?_
  match a with
  | ⟨0, _⟩ =>
    show GatherDims.start gd (ix5 dd b h w c) idx (0 : Fin 4) + GatherDims.batchCoord gd (ix5 dd b h w c) (0 : Fin 4)
      + GatherDims.offCoord gd (ix5 dd b h w c) (0 : Fin 4) = b.val
    rw [GatherDims.batchCoord_eq_zero gd _ _ (by decide)]
    unfold GatherDims.start GatherDims.offCoord
    rw [dif_neg (by decide), dif_pos (by decide)]
    show 0 + 0 + b.val = b.val
    omega
  | ⟨1, _⟩ =>
    show GatherDims.start gd (ix5 dd b h w c) idx (1 : Fin 4) + GatherDims.batchCoord gd (ix5 dd b h w c) (1 : Fin 4)
      + GatherDims.offCoord gd (ix5 dd b h w c) (1 : Fin 4) = h.val
    rw [GatherDims.batchCoord_eq_zero gd _ _ (by decide)]
    unfold GatherDims.start GatherDims.offCoord
    rw [dif_neg (by decide), dif_pos (by decide)]
    show 0 + 0 + h.val = h.val
    omega
  | ⟨2, _⟩ =>
    show GatherDims.start gd (ix5 dd b h w c) idx (2 : Fin 4) + GatherDims.batchCoord gd (ix5 dd b h w c) (2 : Fin 4)
      + GatherDims.offCoord gd (ix5 dd b h w c) (2 : Fin 4) = min (idx (ix3 dd w 0)).toInt.toNat (256 - 1)
    rw [GatherDims.batchCoord_eq_zero gd _ _ (by decide), GatherDims.offCoord_eq_zero gd _ _ (by decide)]
    unfold GatherDims.start
    rw [dif_pos (by decide)]
    have hsi : ∀ p, GatherDims.siIdx gd (ix5 dd b h w c) ⟨List.idxOf (2 : Fin 4) gd.startIndexMap, p⟩ = ix3 dd w 0 := by
      intro p
      funext k; refine Fin.ext ?_
      match k with
      | ⟨0, _⟩ => rfl
      | ⟨1, _⟩ => rfl
      | ⟨2, _⟩ => rfl
    rw [hsi]
    rfl
  | ⟨3, _⟩ =>
    show GatherDims.start gd (ix5 dd b h w c) idx (3 : Fin 4) + GatherDims.batchCoord gd (ix5 dd b h w c) (3 : Fin 4)
      + GatherDims.offCoord gd (ix5 dd b h w c) (3 : Fin 4) = c.val
    rw [GatherDims.batchCoord_eq_zero gd _ _ (by decide)]
    unfold GatherDims.start GatherDims.offCoord
    rw [dif_neg (by decide), dif_pos (by decide)]
    show 0 + 0 + c.val = c.val
    omega

/-! ## The result at an index -/

/-- THE REFERENCE'S RESULT, entry by entry, is the cost volume. -/
theorem refOut_apply (L R : FVec Ideal S2x64x256x32 .f32) (b : Fin 2) (dd : Fin 96) (h : Fin 64) (w : Fin 256) (c : Fin 64) :
    refOut (F := Ideal) L R (ix5 b dd h w c) = CostVolume.entry L R b dd h w c := by
  have hc64 := c.isLt
  unfold refOut
  refine (transpose_apply _ _ _ (ix5 b dd h w c) (ix5 dd b h w c) (fun a => match a with
    | ⟨0, _⟩ => rfl | ⟨1, _⟩ => rfl | ⟨2, _⟩ => rfl | ⟨3, _⟩ => rfl | ⟨4, _⟩ => rfl)).trans ?_
  show Scalar.select (validMask (ix2 dd w)) (levels L R (ix5 dd b h w c)) (Ideal.ofBits .f32 0x00000000#32) = _
  rw [validMask_apply]
  unfold CostVolume.entry
  by_cases hr : InRange dd.val w.val
  · rw [if_pos hr, if_pos hr, select_one]
    unfold levels
    by_cases hc : c.val < 32
    · rw [if_pos hc]
      refine (concatenate_pair_apply_left (t := S96x2x64x256x64) (s₁ := S96x2x64x256x32) (s₂ := S96x2x64x256x32) (4 : Fin 5) _ _ _ (ix5 dd b h w c) rfl
        (ix5 dd b h w (⟨c.val, hc⟩ : Fin 32) : S96x2x64x256x32.Idx) (fun a => match a with
        | ⟨0, _⟩ => rfl | ⟨1, _⟩ => rfl | ⟨2, _⟩ => rfl | ⟨3, _⟩ => rfl | ⟨4, _⟩ => rfl)).trans ?_
      show L _ = L _
      congr 1
      funext a
      match a with
      | ⟨0, _⟩ => rfl
      | ⟨1, _⟩ => rfl
      | ⟨2, _⟩ => rfl
      | ⟨3, _⟩ => exact Fin.ext (by show c.val = c.val % 32; omega)
    · rw [if_neg hc]
      refine (concatenate_pair_apply_right (t := S96x2x64x256x64) (s₁ := S96x2x64x256x32) (s₂ := S96x2x64x256x32) (4 : Fin 5) _ _ _ (ix5 dd b h w c) rfl rfl
        (ix5 dd b h w (⟨c.val - 32, by omega⟩ : Fin 32) : S96x2x64x256x32.Idx)
        (fun a ha => match a, ha with
          | ⟨0, _⟩, _ => rfl | ⟨1, _⟩, _ => rfl | ⟨2, _⟩, _ => rfl | ⟨3, _⟩, _ => rfl
          | ⟨4, _⟩, ha => absurd rfl ha)
        (by show c.val - 32 + 32 = c.val; omega)).trans ?_
      have hm : ∀ j, broadcastInDim S96x2x64x256x32 ![0, 3] bcast_S96x256_S96x2x64x256x32_0_3 inBounds j = 1#1 :=
        fun j => inBounds_apply _
      unfold taken
      rw [select_apply, hm, select_one, gather_apply]
      refine congrArg R (funext fun a => ?_)
      match a with
      | ⟨0, _⟩ => rfl
      | ⟨1, _⟩ => rfl
      | ⟨2, _⟩ => exact Fin.ext (by
          show min (starts (ix3 dd w 0)).toInt.toNat (256 - 1) = (w.val + 48 - dd.val) % 256
          rw [starts_apply, start_val dd w hr]
          obtain ⟨h1, h2⟩ := hr
          omega)
      | ⟨3, _⟩ => exact Fin.ext (by show c.val - 32 = c.val % 32; omega)
  · rw [if_neg hr, if_neg hr, select_zero]
    exact Ideal.ofBits_zero_f32

/-- The reference's result is the cost volume of its two arguments. -/
theorem refOut_eq (L R : FVec Ideal S2x64x256x32 .f32) : refOut (F := Ideal) L R = vol L R := by
  funext j
  obtain ⟨b, dd, h, w, c, rfl⟩ : ∃ (b : Fin 2) (dd : Fin 96) (h : Fin 64) (w : Fin 256) (c : Fin 64), j = ix5 b dd h w c :=
    ⟨j 0, j 1, j 2, j 3, j 4, eq_ix5 j⟩
  rw [refOut_apply, vol_ix5]

end Cert.ReferenceIdeal.RefValue

end
-- ==== Proof.lean ====
/-
  The certificate of the cost-volume kernel against its reference.

  Both programs compute, from a left and a right image `[2, 64, 256, 32]`, the cost volume `[2, 96, 64, 256, 64]`: at batch
  entry `b`, disparity slot `dd` (disparity `d = dd - 48`), row `h`, column `w`, the 32 channels of the left image at
  `(b, h, w)` followed by the 32 channels of the right image at `(b, h, w - d)`, and zeros in all 64 channels where
  `w - d` is not a column (Proof/Spec.lean). The kernel masks the left half with a select and reads the right half from a
  zero-padded copy of the right image through a window shifted by `96 - dd` columns (Proof/KernelPieces.lean,
  KernelBlocks.lean, KernelValue.lean); the reference gathers the right image at the clipped column, concatenates and
  masks both halves with one select (Proof/RefRun.lean, RefStages.lean, RefValue.lean, RefWords.lean, RefRead.lean).
  No arithmetic on the image values is involved — selects, copies and a zero — so the two results agree on all extended
  reals and the finiteness precondition is never opened. The idealization rewrote nothing, so `preserves` is trivial.
-/
import proofs.«133507_j27900107554984_2_alg».proof.Defs
import proofs.«133507_j27900107554984_2_alg».proof.Proof.Gen.Kernel
import proofs.«133507_j27900107554984_2_alg».proof.Proof.Gen.Kernel.Frame
import proofs.«133507_j27900107554984_2_alg».proof.Proof.Gen.KernelIdeal
import proofs.«133507_j27900107554984_2_alg».proof.Proof.Gen.KernelIdeal.Frame
import proofs.«133507_j27900107554984_2_alg».proof.Proof.Gen.ReferenceIdeal
import proofs.«133507_j27900107554984_2_alg».proof.Proof.Gen.Pre_finite_inputs
import proofs.«133507_j27900107554984_2_alg».proof.Proof.KernelValue
import proofs.«133507_j27900107554984_2_alg».proof.Proof.RefValue
import proofs.«133507_j27900107554984_2_alg».proof.Proof.RefRead

noncomputable section

namespace Cert.Proof

open Idealize.ShloMosaic Idealize.ShloMosaic.TcCoe Idealize.SL.Sem

/-- The reference's run: every weakly fair execution ends with its result buffer at the cost volume of its two argument
    images, the arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v20)
            = CostVolume.vol (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono
    (fun _ h c => ⟨(h c Cert.ReferenceIdeal.main_v20).trans
        ((Cert.ReferenceIdeal.RefValue.out_eq _).trans (Cert.ReferenceIdeal.RefValue.refOut_eq _ _)),
      (h c Cert.ReferenceIdeal.main_arg0).trans (Cert.ReferenceIdeal.RefValue.arg0_eq _),
      (h c Cert.ReferenceIdeal.main_arg1).trans (Cert.ReferenceIdeal.RefValue.arg1_eq _)⟩)
    (Cert.ReferenceIdeal.RefRun.run_main (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (reference_run m ρ)

/-- The idealization rewrote no operation. -/
theorem preserves : Cert.preserves_Kernel_KernelIdeal := trivial

/-- From memories agreeing on the two images, the kernel's result array (Proof/KernelValue.lean) and the reference's
    (above) both end at the cost volume of the images. -/
theorem algebraic : Cert.algebraic_KernelIdeal_ReferenceIdeal := by
  intro m ρ m' ρ' _ hagree
  refine ⟨fun c => Cert.KernelIdeal.KValue.val m c, Cert.KernelIdeal.KValue.run m ρ, ?_⟩
  refine (θ_run Cert.ReferenceIdeal.defs _ _).mono (fun _ h c => ⟨(h c).1.trans ?_, (h c).2⟩) (reference_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
